-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S256x40 : Shape := ⟨2, ![256, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S256x40 .f32) (main_arg5 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S256x40 .f32 := Host.absf main_arg4
  let main_cst_6 : FVec F S_ .f32 := constant S_ .f32 0x7F800000#32
  let main_v20 : FVec F S256x40 .f32 := broadcastInDim S256x40 ![] bcast_S_S256x40 main_cst_6
  let main_v21 : IVec S256x40 1 := cmpf .olt main_v19 main_v20
  let main_c_7 : IVec S_ 1 := constantI S_ 1 1#1
  let main_v22 : IVec S_ 1 := (fun x v => Host.reduce IntOp.andi x v reducesTo_S256x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128x128 .f32) (main_arg4 : FVec F S256x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S256x40 : Shape := ⟨2, ![256, 40]⟩
abbrev S40 : Shape := ⟨1, ![40]⟩
abbrev S400x10000 : Shape := ⟨2, ![400, 10000]⟩
abbrev S400x128 : Shape := ⟨2, ![400, 128]⟩
abbrev S128x40 : Shape := ⟨2, ![128, 40]⟩
abbrev S1x40 : Shape := ⟨2, ![1, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 14
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S256x40, .f32⟩
  | .hbm, ⟨5, _⟩ => ⟨S40, .f32⟩
  | .hbm, ⟨6, _⟩ => ⟨S10000x128, .bf16⟩
  | .hbm, ⟨7, _⟩ => ⟨S10000x128, .f32⟩
  | .hbm, ⟨8, _⟩ => ⟨S10000x128, .bf16⟩
  | .hbm, ⟨9, _⟩ => ⟨S10000x128, .f32⟩
  | .hbm, ⟨10, _⟩ => ⟨S128x40, .f32⟩
  | .hbm, ⟨11, _⟩ => ⟨S128x40, .f32⟩
  | .hbm, ⟨12, _⟩ => ⟨S1x40, .f32⟩
  | .hbm, ⟨13, _⟩ => ⟨S10000x40, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S400x128, .f32⟩
  | .local _ .vmem, ⟨7, _⟩ => ⟨S400x128, .f32⟩
  | .local _ .vmem, ⟨8, _⟩ => ⟨S10000x128, .f32⟩
  | .local _ .vmem, ⟨9, _⟩ => ⟨S128x128, .f32⟩
  | .local _ .vmem, ⟨10, _⟩ => ⟨S10000x128, .bf16⟩
  | .local _ .vmem, ⟨11, _⟩ => ⟨S400x10000, .f32⟩
  | .local _ .vmem, ⟨12, _⟩ => ⟨S400x10000, .f32⟩
  | .local _ .vmem, ⟨13, _⟩ => ⟨S10000x128, .bf16⟩
  | .local _ .vmem, ⟨14, _⟩ => ⟨S400x128, .f32⟩
  | .local _ .vmem, ⟨15, _⟩ => ⟨S400x128, .f32⟩
  | .local _ .vmem, ⟨16, _⟩ => ⟨S10000x128, .f32⟩
  | .local _ .vmem, ⟨17, _⟩ => ⟨S10000x128, .f32⟩
  | .local _ .vmem, ⟨18, _⟩ => ⟨S128x40, .f32⟩
  | .local _ .vmem, ⟨19, _⟩ => ⟨S128x40, .f32⟩
  | .local _ .vmem, ⟨20, _⟩ => ⟨S1x40, .f32⟩
  | .local _ .vmem, ⟨21, _⟩ => ⟨S10000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg2_0 : Ref sig .tc := ⟨.vmem, 14, rfl⟩
abbrev cc3_stg2_1 : Ref sig .tc := ⟨.vmem, 15, rfl⟩
abbrev cc4_stg0_0 : Ref sig .tc := ⟨.vmem, 16, rfl⟩
abbrev cc4_stg1_0 : Ref sig .tc := ⟨.vmem, 17, rfl⟩
abbrev cc4_stg2_0 : Ref sig .tc := ⟨.vmem, 18, rfl⟩
abbrev cc4_stg3_0 : Ref sig .tc := ⟨.vmem, 19, rfl⟩
abbrev cc4_stg4_0 : Ref sig .tc := ⟨.vmem, 20, rfl⟩
abbrev cc4_stg5_0 : Ref sig .tc := ⟨.vmem, 21, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem0_1 : DmaSem sig := 12
abbrev cc3_sem1_0 : DmaSem sig := 13
abbrev cc3_sem2_0 : DmaSem sig := 14
abbrev cc3_sem2_1 : DmaSem sig := 15
abbrev cc4_sem0_0 : DmaSem sig := 16
abbrev cc4_sem1_0 : DmaSem sig := 17
abbrev cc4_sem2_0 : DmaSem sig := 18
abbrev cc4_sem3_0 : DmaSem sig := 19
abbrev cc4_sem4_0 : DmaSem sig := 20
abbrev cc4_sem5_0 : DmaSem sig := 21

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S10000x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := .none

abbrev stage4_0 : Fin 1 → Memref sig .tc .vmem S10000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S10000x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S128x40 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1x40 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S10000x40 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  slices_S256x40_S128x40_0_0 : S256x40.Slices ![0, 0] S128x40
  slices_S256x40_S128x40_128_0 : S256x40.Slices ![128, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S10000x128_S128x40_S10000x40_1_0_0_1_n_n_wf : DotDims.WF S10000x128 S128x40 S10000x40 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage2_0 : ∀ j, (stage2_0 j).IsWhole
  hstage2_1 : ∀ j, (stage2_1 j).IsWhole
  hstage2_2 : ∀ j, (stage2_2 j).IsWhole
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .f32 = 32 ∨ (Rect.block (s := S10000x128) S400x128.size (cc3_transform_2 i) (hinb3_2 i)).WholeWords (EltTy.packing .f32)
  hstage4_0 : ∀ j, (stage4_0 j).IsWhole
  hstage4_1 : ∀ j, (stage4_1 j).IsWhole
  hstage4_2 : ∀ j, (stage4_2 j).IsWhole
  hstage4_3 : ∀ j, (stage4_3 j).IsWhole
  hstage4_4 : ∀ j, (stage4_4 j).IsWhole
  hstage4_5 : ∀ j, (stage4_5 j).IsWhole

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.whole (Memref.whole main_v1) false false (stage2_0 0) (sem2_0 0) (Memref.isWhole_whole _) (hstage2_0 0)

abbrev win2_1 : Pipeline.Window sig grid2 :=
  Pipeline.Window.whole (Memref.whole main_arg3) false false (stage2_1 0) (sem2_1 0) (Memref.isWhole_whole _) (hstage2_1 0)

abbrev win2_2 : Pipeline.Window sig grid2 :=
  Pipeline.Window.whole (Memref.whole main_v2) true false (stage2_2 0) (sem2_2 0) (Memref.isWhole_whole _) (hstage2_2 0)

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S400x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.whole (Memref.whole main_v1) false false (stage4_0 0) (sem4_0 0) (Memref.isWhole_whole _) (hstage4_0 0)

abbrev win4_1 : Pipeline.Window sig grid4 :=
  Pipeline.Window.whole (Memref.whole main_v3) false false (stage4_1 0) (sem4_1 0) (Memref.isWhole_whole _) (hstage4_1 0)

abbrev win4_2 : Pipeline.Window sig grid4 :=
  Pipeline.Window.whole (Memref.whole main_v4) false false (stage4_2 0) (sem4_2 0) (Memref.isWhole_whole _) (hstage4_2 0)

abbrev win4_3 : Pipeline.Window sig grid4 :=
  Pipeline.Window.whole (Memref.whole main_v5) false false (stage4_3 0) (sem4_3 0) (Memref.isWhole_whole _) (hstage4_3 0)

abbrev win4_4 : Pipeline.Window sig grid4 :=
  Pipeline.Window.whole (Memref.whole main_v6) false false (stage4_4 0) (sem4_4 0) (Memref.isWhole_whole _) (hstage4_4 0)

abbrev win4_5 : Pipeline.Window sig grid4 :=
  Pipeline.Window.whole (Memref.whole main_v7) true false (stage4_5 0) (sem4_5 0) (Memref.isWhole_whole _) (hstage4_5 0)

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S256x40 : Shape := ⟨2, ![256, 40]⟩
abbrev S40 : Shape := ⟨1, ![40]⟩
abbrev S_ : Shape := ⟨0, ![]⟩
abbrev S10000x256 : Shape := ⟨2, ![10000, 256]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S256x40, .f32⟩
  | .hbm, ⟨5, _⟩ => ⟨S40, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x256, .f32⟩
  | .hbm, ⟨17, _⟩ => ⟨S10000x40, .f32⟩
  | .hbm, ⟨18, _⟩ => ⟨S1x40, .f32⟩
  | .hbm, ⟨19, _⟩ => ⟨S10000x40, .f32⟩
  | .hbm, ⟨20, _⟩ => ⟨S10000x40, .f32⟩
  | .hbm, ⟨21, _⟩ => ⟨S_, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000x40, .f32⟩
  | .hbm, ⟨28, _⟩ => ⟨S10000x40, .f32⟩
  | .hbm, ⟨29, _⟩ => ⟨S10000x40, .f32⟩
  | .hbm, ⟨30, _⟩ => ⟨S_, .f32⟩
  | .hbm, ⟨31, _⟩ => ⟨S10000, .f32⟩
  | .hbm, ⟨32, _⟩ => ⟨S10000x1, .f32⟩
  | .hbm, ⟨33, _⟩ => ⟨S10000x1, .f32⟩
  | .hbm, ⟨34, _⟩ => ⟨S10000x40, .f32⟩
  | .hbm, ⟨35, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_call0_cst_0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_cst_1 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_v13 : Ref sig .tc := ⟨.hbm, 35, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  concatenates_S10000x128_S10000x128_S10000x256_d1 : Shape.Concatenates [S10000x128, S10000x128] S10000x256 1
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x256_S256x40_S10000x40_1_0_0_1_n_n_wf : DotDims.WF S10000x256 S256x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x40_S10000x40_1_0_0_1_n_n : DotDims S10000x256 S256x40 S10000x40 where
  lhsContracting := [1]
  rhsContracting := [0]
  lhsNonContracting := [0]
  rhsNonContracting := [1]
  lhsBatch := []
  rhsBatch := []
  wf := dot_S10000x256_S256x40_S10000x40_1_0_0_1_n_n_wf

class Facts : Prop extends Facts₀ where

variable [Facts]
-- ==== Proof.KernelRun.lean ====
/-
  The idealized kernel's run with its result named. The program is five kernel launches with three host operations
  before the last; the buffers' contents at each boundary are a fold from the launch memory, and the last boundary's
  contents are what every final state holds. The generated frame keeps from that only the six arguments; here the same
  run keeps the result buffer as well: it ends at the last boundary's contents of that buffer.
-/
import proofs.«160750_g30322469110222_cont_sun_m_817_2_alg».proof.Proof.Gen.KernelIdeal.Frame

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments as
    launched. -/
theorem run_named : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelRun

end
-- ==== Proof.Spec.lean ====
/-
  The function both programs compute, as whole arrays over the extended reals (or any float values).

  Nodes carry 128 features; P is the 10000 x 10000 propagation matrix. One layer takes node features a and a weight
  matrix w to  max(P (a w), 0): a product of the features with the weights, a product with P, and the positive part.
  The two layers' outputs h0 = layer(x, W0) and h1 = layer(h0, W1) are laid side by side into [h0 h1] (256 columns),
  multiplied by the 256 x 40 matrix of the final linear map, and the bias row is added to every row: the scores z.
  The result is the row-wise log-softmax of z in the shifted form: with M_r the maximum of row r (taken from -inf and
  joined once more with -inf) and c = z - M the centred scores,  out = c - log (sum over the row of exp c).
  Every stage is written with the host program's operations, so that the reference's composed term is this function
  by unfolding, and the kernel's five stages are matched to it one by one.
-/
import proofs.«160750_g30322469110222_cont_sun_m_817_2_alg».proof.ReferenceIdeal
import proofs.«160750_g30322469110222_cont_sun_m_817_2_alg».proof.Proof.Gen.ReferenceIdeal

noncomputable section

namespace Cert.Spec

open Idealize.ShloMosaic Cert.ReferenceIdeal Cert.ReferenceIdeal.Facts₀

variable {F : FTy → Type} [FloatOps F]

/-- The positive part, entry by entry: the maximum with the zero array. -/
def positivePart (a : FVec F S10000x128 .f32) : FVec F S10000x128 .f32 :=
  maximumf a (broadcastInDim S10000x128 ![] bcast_S_S10000x128 (constant S_ .f32 0x00000000#32))

/-- Node features times a weight matrix. -/
def weighted (a : FVec F S10000x128 .f32) (w : FVec F S128x128 .f32) : FVec F S10000x128 .f32 :=
  Host.dotGeneral dot_S10000x128_S128x128_S10000x128_1_0_0_1_n_n none a w

/-- Propagation of weighted features along P, then the positive part. -/
def propagated (P : FVec F S10000x10000 .f32) (s : FVec F S10000x128 .f32) : FVec F S10000x128 .f32 :=
  positivePart (Host.dotGeneral dot_S10000x10000_S10000x128_S10000x128_1_0_0_1_n_n none P s)

/-- One layer: max(P (a w), 0). -/
def layer (P : FVec F S10000x10000 .f32) (a : FVec F S10000x128 .f32) (w : FVec F S128x128 .f32) : FVec F S10000x128 .f32 :=
  propagated P (weighted a w)

/-- The scores: [h0 h1] times the final matrix, plus the bias row on every row. -/
def scores (h0 h1 : FVec F S10000x128 .f32) (fcW : FVec F S256x40 .f32) (b : FVec F S40 .f32) : FVec F S10000x40 .f32 :=
  addf (Host.dotGeneral dot_S10000x256_S256x40_S10000x40_1_0_0_1_n_n none
      (concatenate S10000x256 1 [⟨S10000x128, h0⟩, ⟨S10000x128, h1⟩] concatenates_S10000x128_S10000x128_S10000x256_d1) fcW)
    (broadcastInDim S10000x40 ![0, 1] bcast_S1x40_S10000x40_0_1 (broadcastInDim S1x40 ![1] bcast_S40_S1x40_1 b))

/-- Each row's maximum, from -inf, joined once more with -inf. -/
def rowMax (z : FVec F S10000x40 .f32) : FVec F S10000 .f32 :=
  maximumf (broadcastInDim S10000 ![] bcast_S_S10000 (constant S_ .f32 0xFF800000#32))
    (Host.reduce FloatOps.maximumf z (constant S_ .f32 0xFF800000#32) reducesTo_S10000x40_S10000_d1 h_S_)

/-- The scores less their row's maximum. -/
def centred (z : FVec F S10000x40 .f32) : FVec F S10000x40 .f32 :=
  subf z (broadcastInDim S10000x40 ![0, 1] bcast_S10000x1_S10000x40_0_1
    (broadcastInDim S10000x1 ![0] bcast_S10000_S10000x1_0 (rowMax z)))

/-- The row-wise log-softmax in the shifted form. -/
def logSoftmax (z : FVec F S10000x40 .f32) : FVec F S10000x40 .f32 :=
  subf (centred z) (broadcastInDim S10000x40 ![0, 1] bcast_S10000x1_S10000x40_0_1
    (Host.log (broadcastInDim S10000x1 ![0] bcast_S10000_S10000x1_0
      (Host.reduceAdd (Host.exp (centred z)) (constant S_ .f32 0x00000000#32) reducesTo_S10000x40_S10000_d1 h_S_))))

/-- The whole network. -/
def out (x : FVec F S10000x128 .f32) (P : FVec F S10000x10000 .f32) (W0 W1 : FVec F S128x128 .f32)
    (fcW : FVec F S256x40 .f32) (b : FVec F S40 .f32) : FVec F S10000x40 .f32 :=
  logSoftmax (scores (layer P x W0) (layer P (layer P x W0) W1) fcW b)

end Cert.Spec

end
-- ==== Proof.LibPlainDot.lean ====
/-
  A plain matrix product read at an entry. For the dimension numbers of an [M, K] by [K, N] product (no batch axis,
  the left operand contracted on its last axis and the right on its first) the entry (p, q) of the product is
  ∑ₖ l(p, k) · r(k, q) over k : Fin K — for a tpu.matmul into the zero accumulator and for the host's dot_general alike,
  at the ideal values. General in the three extents and in the operands' formats; a printed record of these dimension
  numbers is DotDims.plain M K N up to the proof it carries, so it is passed with the equation (by rfl).
-/
import Idealize.ShloMosaic.PureOps.Ideal.Laws
import Idealize.ShloMosaic.Lib.ValueIdx

namespace Idealize.ShloMosaic.ValueIdx

/-- The left operand's row is the output's row, whatever the contraction index. -/
theorem plain_lhs_row {M K N : ℕ} (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column, whatever the contraction index. -/
theorem plain_rhs_col {M K N : ℕ} (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The left operand's index at output (p, q) and contraction coordinate k is (p, k). -/
theorem plain_lhsIdx {M K N : ℕ} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => exact plain_lhs_row (ix2 p q) _
  | ⟨1, _⟩ => exact ((DotDims.plain M K N).lhsIdx_val_of_single (cl := (1 : Fin 2)) rfl (ix2 p q) _).trans hk

/-- The right operand's index at output (p, q) and contraction coordinate k is (k, q). -/
theorem plain_rhsIdx {M K N : ℕ} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single (cr := (0 : Fin 2)) rfl (ix2 p q) _).trans hk
  | ⟨1, _⟩ => exact plain_rhs_col (ix2 p q) _

/-- The product's sum over the contraction index, re-indexed by the contracted coordinate. -/
theorem sum_plain {M K N : ℕ} (l : (⟨2, ![M, K]⟩ : Shape).Idx → EReal) (r : (⟨2, ![K, N]⟩ : Shape).Idx → EReal)
    (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  exact Finset.sum_congr rfl fun k _ => by rw [plain_lhsIdx, plain_rhsIdx]

/-- A tpu.matmul of these dimension numbers into the zero accumulator, at entry (p, q). -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  exact (Ideal.matmul_constant_zero_apply _ prec lhs rhs (ix2 p q)).trans (sum_plain lhs rhs p q)

/-- The host's dot_general of these dimension numbers, at entry (p, q). -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  exact (Ideal.dotGeneral_apply _ prec sched lhs rhs (ix2 p q)).trans (sum_plain lhs rhs p q)

end Idealize.ShloMosaic.ValueIdx
-- ==== Proof.Products.lean ====
/-
  The products of the network, entry by entry, in the kernels' spelling and in the specification's.

  Every product here is a plain one: entry (p, q) of l r is the sum over k of l(p, k) r(k, q), whether a kernel
  accumulates it into a zero array on the matrix unit or the host takes a dot product; a narrowing to sixteen bits
  changes no value. So the features times a weight matrix (the first and third kernels) are the specification's
  weighted features as whole arrays, and one block of 400 rows of max(P s, 0) (the second and fourth kernels, one grid
  point each) is, entry by entry, the same sum over all 10000 columns of P's row, joined with zero.
-/
import proofs.«160750_g30322469110222_cont_sun_m_817_2_alg».proof.KernelIdeal
import proofs.«160750_g30322469110222_cont_sun_m_817_2_alg».proof.Proof.Gen.KernelIdeal.Skeleton
import proofs.«160750_g30322469110222_cont_sun_m_817_2_alg».proof.Proof.Spec
import proofs.«160750_g30322469110222_cont_sun_m_817_2_alg».proof.Proof.LibPlainDot
import Idealize.ShloMosaic.Lib.KernelVsHost
import Idealize.ShloMosaic.Lib.Pipeline.Value
import Idealize.ShloMosaic.Lib.ValueIdx
import Idealize.ShloMosaic.PureOps.Ideal.Laws

noncomputable section

namespace Cert.Stages

open Idealize.ShloMosaic Idealize.ShloMosaic.ValueIdx

/-- Entry (p, q) of the specification's weighted features: the sum over the 128 features. -/
theorem weighted_apply (a : FVec Ideal Cert.ReferenceIdeal.S10000x128 .f32) (w : FVec Ideal Cert.ReferenceIdeal.S128x128 .f32)
    (p : Fin 10000) (q : Fin 128) :
    Cert.Spec.weighted (F := Ideal) a w (ix2 p q) = ∑ k : Fin 128, a (ix2 p k) * w (ix2 k q) := by
  unfold Cert.Spec.weighted
  exact dotGeneral_plain_apply _ rfl none _ a w p q

/-- Entry (p, q) of the specification's propagated features: row p of P against column q, joined with zero. -/
theorem propagated_apply (P : FVec Ideal Cert.ReferenceIdeal.S10000x10000 .f32) (s : FVec Ideal Cert.ReferenceIdeal.S10000x128 .f32)
    (p : Fin 10000) (q : Fin 128) :
    Cert.Spec.propagated (F := Ideal) P s (ix2 p q)
      = max (∑ k : Fin 10000, P (ix2 p k) * s (ix2 k q)) (Ideal.ofBits .f32 0x00000000#32) := by
  unfold Cert.Spec.propagated Cert.Spec.positivePart
  show max (FloatOps.dotGeneral _ none _ P s (ix2 p q)) (broadcastInDim _ _ _ (constant Cert.ReferenceIdeal.S_ .f32 0x00000000#32) (ix2 p q)) = _
  rw [dotGeneral_plain_apply Cert.ReferenceIdeal.dot_S10000x10000_S10000x128_S10000x128_1_0_0_1_n_n rfl none _ P s p q,
    broadcastInDim_apply _ _ (constant Cert.ReferenceIdeal.S_ .f32 0x00000000#32 : FVec Ideal _ .f32) (ix2 p q) (fun a => a.elim0) (fun a => a.elim0)]
  rfl

/-- The first kernel's stored value: the features times the weights, as the specification writes them. -/
theorem small_product0 (x : Vec Ideal Cert.KernelIdeal.S10000x128 .f32) (w : Vec Ideal Cert.KernelIdeal.S128x128 .f32) :
    (Cert.KernelIdeal.Gen.k0_pay1 (F := Ideal) x w : Cert.KernelIdeal.S10000x128.Idx → EReal)
      = Cert.Spec.weighted (F := Ideal) x w := by
  funext j
  obtain ⟨p, q, rfl⟩ : ∃ (p : Fin 10000) (q : Fin 128), j = ix2 p q := ⟨j 0, j 1, eq_ix2 j⟩
  rw [weighted_apply]
  unfold Cert.KernelIdeal.Gen.k0_pay1
  exact matmul_plain_zero_apply _ rfl none x w p q

/-- The third kernel's stored value, the same product (its operand re-cast to its own shape). -/
theorem small_product2 (x : Vec Ideal Cert.KernelIdeal.S10000x128 .f32) (w : Vec Ideal Cert.KernelIdeal.S128x128 .f32) :
    (Cert.KernelIdeal.Gen.k2_pay1 (F := Ideal) x w : Cert.KernelIdeal.S10000x128.Idx → EReal)
      = Cert.Spec.weighted (F := Ideal) x w := by
  funext j
  obtain ⟨p, q, rfl⟩ : ∃ (p : Fin 10000) (q : Fin 128), j = ix2 p q := ⟨j 0, j 1, eq_ix2 j⟩
  rw [weighted_apply]
  unfold Cert.KernelIdeal.Gen.k2_pay1
  rw [shapeCast_self]
  exact matmul_plain_zero_apply _ rfl none x w p q

/-- One block of the second kernel: 400 rows of P against all of s, joined with zero, entry by entry. -/
theorem big_product1 (Pb : Vec Ideal Cert.KernelIdeal.S400x10000 .f32) (s : Vec Ideal Cert.KernelIdeal.S10000x128 .bf16)
    (y0 : Fin 400) (y1 : Fin 128) :
    (Cert.KernelIdeal.Gen.k1_pay1 (F := Ideal) Pb s : Cert.KernelIdeal.S400x128.Idx → EReal) (ix2 y0 y1)
      = max (∑ k : Fin 10000, (Pb (ix2 y0 k) : EReal) * (s (ix2 k y1) : EReal)) (Ideal.ofBits .f32 0x00000000#32) := by
  unfold Cert.KernelIdeal.Gen.k1_pay1
  rw [shapeCast_self]
  exact congrArg (fun t => max t (Ideal.ofBits .f32 0x00000000#32))
    (matmul_plain_zero_apply (φ₁ := .bf16) (φ₂ := .bf16) Cert.KernelIdeal.dot_S400x10000_S10000x128_S400x128_1_0_0_1_n_n rfl none
      (truncf .bf16 Pb Cert.KernelIdeal.Facts₀.bitsLt_bf16_f32) s y0 y1)

/-- One block of the fourth kernel: the same. -/
theorem big_product3 (Pb : Vec Ideal Cert.KernelIdeal.S400x10000 .f32) (s : Vec Ideal Cert.KernelIdeal.S10000x128 .bf16)
    (y0 : Fin 400) (y1 : Fin 128) :
    (Cert.KernelIdeal.Gen.k3_pay1 (F := Ideal) Pb s : Cert.KernelIdeal.S400x128.Idx → EReal) (ix2 y0 y1)
      = max (∑ k : Fin 10000, (Pb (ix2 y0 k) : EReal) * (s (ix2 k y1) : EReal)) (Ideal.ofBits .f32 0x00000000#32) := by
  unfold Cert.KernelIdeal.Gen.k3_pay1
  rw [shapeCast_self]
  exact congrArg (fun t => max t (Ideal.ofBits .f32 0x00000000#32))
    (matmul_plain_zero_apply (φ₁ := .bf16) (φ₂ := .bf16) Cert.KernelIdeal.dot_S400x10000_S10000x128_S400x128_1_0_0_1_n_n rfl none
      (truncf .bf16 Pb Cert.KernelIdeal.Facts₀.bitsLt_bf16_f32) s y0 y1)

end Cert.Stages

end
-- ==== Proof.WholeArrays.lean ====
/-
  What the three kernels without a grid leave in their output arrays, as functions of the arrays they find.

  Each of these kernels sees every operand whole: its one block of a window is the array itself, and the one block it
  writes back covers the output array. So the output array ends at the body's stored value of the input arrays: the
  features times the weights for the first and third kernels, and for the last kernel its stored value of the two
  layers, the two halves of the final matrix and the bias row.
-/
import proofs.«160750_g30322469110222_cont_sun_m_817_2_alg».proof.Proof.Gen.KernelIdeal.Frame
import proofs.«160750_g30322469110222_cont_sun_m_817_2_alg».proof.Proof.Products
import Idealize.ShloMosaic.Lib.Pipeline.Value

set_option maxRecDepth 16384

noncomputable section

namespace Cert.Arrays

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! ## The first kernel: features times the first weight matrix -/

theorem iblk0_0 (c : Dev nD) (t : Fin cfg0.N) : (iblk0 (F := Ideal) V c 0 t : S10000x128.Idx → EReal) = V c main_arg0 := by
  funext y
  show V c main_arg0 (((cfg0.win 0).blk t).view.emb y) = V c main_arg0 y
  refine congrArg _ (funext fun a => Fin.ext ?_)
  match a with
  | ⟨0, _⟩ => show 0 * 10000 + 1 * (y 0).val = (y 0).val; omega
  | ⟨1, _⟩ => show 0 * 128 + 1 * (y 1).val = (y 1).val; omega

theorem iblk0_1 (c : Dev nD) (t : Fin cfg0.N) : (iblk0 (F := Ideal) V c 1 t : S128x128.Idx → EReal) = V c main_arg2 := by
  funext y
  show V c main_arg2 (((cfg0.win 1).blk t).view.emb y) = V c main_arg2 y
  refine congrArg _ (funext fun a => Fin.ext ?_)
  match a with
  | ⟨0, _⟩ => show 0 * 128 + 1 * (y 0).val = (y 0).val; omega
  | ⟨1, _⟩ => show 0 * 128 + 1 * (y 1).val = (y 1).val; omega

/-- What the one point writes back is the whole of the weighted features. -/
theorem flushed0 (c : Dev nD) (t : Fin cfg0.N) :
    (dat0 (F := Ideal) V c).flushed 2 t
      = ((cfg0.win 2).blk t).view.read (Elt Ideal) (Cert.Spec.weighted (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  rw [Cert.Stages.small_product0, iblk0_0, iblk0_1]
  funext j
  show Cert.Spec.weighted (F := Ideal) (V c main_arg0) (V c main_arg2) _ = Cert.Spec.weighted (F := Ideal) (V c main_arg0) (V c main_arg2) (((cfg0.win 2).blk t).view.emb j)
  refine congrArg _ (funext fun a => Fin.ext ?_)
  match a with
  | ⟨0, _⟩ => show (j 0).val = 0 * 10000 + 1 * (j 0).val; omega
  | ⟨1, _⟩ => show (j 1).val = 0 * 128 + 1 * (j 1).val; omega

/-- The one block covers the array. -/
theorem cover0 (i : S10000x128.Idx) :
    ∃ t : Fin cfg0.N, (cfg0.win 2).flush t = true ∧ i ∈ ((cfg0.win 2).blk t).view.set := by
  refine ⟨t0_0, flush0_2 t0_0, ?_⟩
  show i ∈ ((View.whole main_v0).slice (win0_2.rect t0_0)).set
  rw [View.set_slice_whole, Rect.mem_set_unit]
  intro a
  match a with
  | ⟨0, _⟩ => show 0 * 10000 ≤ (i 0).val ∧ (i 0).val < 0 * 10000 + 10000; have h : (i 0).val < 10000 := (i 0).isLt; omega
  | ⟨1, _⟩ => show 0 * 128 ≤ (i 1).val ∧ (i 1).val < 0 * 128 + 128; have h : (i 1).val < 128 := (i 1).isLt; omega

/-- After the first kernel its output array holds the features times the weights. -/
theorem arr0 (c : Dev nD) :
    (dat0 (F := Ideal) V c).arrAt 2 cfg0.N = Cert.Spec.weighted (F := Ideal) (V c main_arg0) (V c main_arg2) :=
  (dat0 V c).arrAt_eq_of_cover 2 _ (fun t _ => flushed0 V c t) cover0

/-! ## The third kernel: the first layer times the second weight matrix -/

theorem iblk2_0 (c : Dev nD) (t : Fin cfg2.N) : (iblk2 (F := Ideal) V c 0 t : S10000x128.Idx → EReal) = V c main_v1 := by
  funext y
  show V c main_v1 (((cfg2.win 0).blk t).view.emb y) = V c main_v1 y
  refine congrArg _ (funext fun a => Fin.ext ?_)
  match a with
  | ⟨0, _⟩ => show 0 * 10000 + 1 * (y 0).val = (y 0).val; omega
  | ⟨1, _⟩ => show 0 * 128 + 1 * (y 1).val = (y 1).val; omega

theorem iblk2_1 (c : Dev nD) (t : Fin cfg2.N) : (iblk2 (F := Ideal) V c 1 t : S128x128.Idx → EReal) = V c main_arg3 := by
  funext y
  show V c main_arg3 (((cfg2.win 1).blk t).view.emb y) = V c main_arg3 y
  refine congrArg _ (funext fun a => Fin.ext ?_)
  match a with
  | ⟨0, _⟩ => show 0 * 128 + 1 * (y 0).val = (y 0).val; omega
  | ⟨1, _⟩ => show 0 * 128 + 1 * (y 1).val = (y 1).val; omega

/-- What the one point writes back is the whole of the weighted features. -/
theorem flushed2 (c : Dev nD) (t : Fin cfg2.N) :
    (dat2 (F := Ideal) V c).flushed 2 t
      = ((cfg2.win 2).blk t).view.read (Elt Ideal) (Cert.Spec.weighted (F := Ideal) (V c main_v1) (V c main_arg3)) := by
  show (cfg2.win 2).cut (grid2.coords t) ((dat2 V c).after 2 t) = _
  rw [after2_2]
  unfold out2_2
  rw [View.canon_unit_zero zero_offsets]
  simp only [View.ld_unit_zero (S := S10000x128) zero_offsets, View.ld_unit_zero (S := S128x128) zero_offsets]
  rw [Cert.Stages.small_product2, iblk2_0, iblk2_1]
  funext j
  show Cert.Spec.weighted (F := Ideal) (V c main_v1) (V c main_arg3) _ = Cert.Spec.weighted (F := Ideal) (V c main_v1) (V c main_arg3) (((cfg2.win 2).blk t).view.emb j)
  refine congrArg _ (funext fun a => Fin.ext ?_)
  match a with
  | ⟨0, _⟩ => show (j 0).val = 0 * 10000 + 1 * (j 0).val; omega
  | ⟨1, _⟩ => show (j 1).val = 0 * 128 + 1 * (j 1).val; omega

/-- The one block covers the array. -/
theorem cover2 (i : S10000x128.Idx) :
    ∃ t : Fin cfg2.N, (cfg2.win 2).flush t = true ∧ i ∈ ((cfg2.win 2).blk t).view.set := by
  refine ⟨t2_0, flush2_2 t2_0, ?_⟩
  show i ∈ ((View.whole main_v2).slice (win2_2.rect t2_0)).set
  rw [View.set_slice_whole, Rect.mem_set_unit]
  intro a
  match a with
  | ⟨0, _⟩ => show 0 * 10000 ≤ (i 0).val ∧ (i 0).val < 0 * 10000 + 10000; have h : (i 0).val < 10000 := (i 0).isLt; omega
  | ⟨1, _⟩ => show 0 * 128 ≤ (i 1).val ∧ (i 1).val < 0 * 128 + 128; have h : (i 1).val < 128 := (i 1).isLt; omega

/-- After the third kernel its output array holds the first layer times the second weight matrix. -/
theorem arr2 (c : Dev nD) :
    (dat2 (F := Ideal) V c).arrAt 2 cfg2.N = Cert.Spec.weighted (F := Ideal) (V c main_v1) (V c main_arg3) :=
  (dat2 V c).arrAt_eq_of_cover 2 _ (fun t _ => flushed2 V c t) cover2

/-! ## The last kernel: its stored value of the two layers, the two halves of the final matrix and the bias row -/

theorem iblk4_0 (c : Dev nD) (t : Fin cfg4.N) : (iblk4 (F := Ideal) V c 0 t : S10000x128.Idx → EReal) = V c main_v1 := by
  funext y
  show V c main_v1 (((cfg4.win 0).blk t).view.emb y) = V c main_v1 y
  refine congrArg _ (funext fun a => Fin.ext ?_)
  match a with
  | ⟨0, _⟩ => show 0 * 10000 + 1 * (y 0).val = (y 0).val; omega
  | ⟨1, _⟩ => show 0 * 128 + 1 * (y 1).val = (y 1).val; omega

theorem iblk4_1 (c : Dev nD) (t : Fin cfg4.N) : (iblk4 (F := Ideal) V c 1 t : S10000x128.Idx → EReal) = V c main_v3 := by
  funext y
  show V c main_v3 (((cfg4.win 1).blk t).view.emb y) = V c main_v3 y
  refine congrArg _ (funext fun a => Fin.ext ?_)
  match a with
  | ⟨0, _⟩ => show 0 * 10000 + 1 * (y 0).val = (y 0).val; omega
  | ⟨1, _⟩ => show 0 * 128 + 1 * (y 1).val = (y 1).val; omega

theorem iblk4_2 (c : Dev nD) (t : Fin cfg4.N) : (iblk4 (F := Ideal) V c 2 t : S128x40.Idx → EReal) = V c main_v4 := by
  funext y
  show V c main_v4 (((cfg4.win 2).blk t).view.emb y) = V c main_v4 y
  refine congrArg _ (funext fun a => Fin.ext ?_)
  match a with
  | ⟨0, _⟩ => show 0 * 128 + 1 * (y 0).val = (y 0).val; omega
  | ⟨1, _⟩ => show 0 * 40 + 1 * (y 1).val = (y 1).val; omega

theorem iblk4_3 (c : Dev nD) (t : Fin cfg4.N) : (iblk4 (F := Ideal) V c 3 t : S128x40.Idx → EReal) = V c main_v5 := by
  funext y
  show V c main_v5 (((cfg4.win 3).blk t).view.emb y) = V c main_v5 y
  refine congrArg _ (funext fun a => Fin.ext ?_)
  match a with
  | ⟨0, _⟩ => show 0 * 128 + 1 * (y 0).val = (y 0).val; omega
  | ⟨1, _⟩ => show 0 * 40 + 1 * (y 1).val = (y 1).val; omega

theorem iblk4_4 (c : Dev nD) (t : Fin cfg4.N) : (iblk4 (F := Ideal) V c 4 t : S1x40.Idx → EReal) = V c main_v6 := by
  funext y
  show V c main_v6 (((cfg4.win 4).blk t).view.emb y) = V c main_v6 y
  refine congrArg _ (funext fun a => Fin.ext ?_)
  match a with
  | ⟨0, _⟩ => show 0 * 1 + 1 * (y 0).val = (y 0).val; omega
  | ⟨1, _⟩ => show 0 * 40 + 1 * (y 1).val = (y 1).val; omega

/-- What the one point writes back is the whole of the stored value. -/
theorem flushed4 (c : Dev nD) (t : Fin cfg4.N) :
    (dat4 (F := Ideal) V c).flushed 5 t
      = ((cfg4.win 5).blk t).view.read (Elt Ideal)
          (k4_pay1 (F := Ideal) (V c main_v1) (V c main_v4) (V c main_v3) (V c main_v5) (V c main_v6)) := by
  show (cfg4.win 5).cut (grid4.coords t) ((dat4 V c).after 5 t) = _
  rw [after4_5]
  unfold out4_5
  rw [View.canon_unit_zero zero_offsets]
  simp only [View.ld_unit_zero (S := S10000x128) zero_offsets, View.ld_unit_zero (S := S128x40) zero_offsets,
    View.ld_unit_zero (S := S1x40) zero_offsets]
  rw [iblk4_0, iblk4_1, iblk4_2, iblk4_3, iblk4_4]
  funext j
  show k4_pay1 (F := Ideal) (V c main_v1) (V c main_v4) (V c main_v3) (V c main_v5) (V c main_v6) _ = k4_pay1 (F := Ideal) (V c main_v1) (V c main_v4) (V c main_v3) (V c main_v5) (V c main_v6) (((cfg4.win 5).blk t).view.emb j)
  refine congrArg _ (funext fun a => Fin.ext ?_)
  match a with
  | ⟨0, _⟩ => show (j 0).val = 0 * 10000 + 1 * (j 0).val; omega
  | ⟨1, _⟩ => show (j 1).val = 0 * 40 + 1 * (j 1).val; omega

/-- The one block covers the array. -/
theorem cover4 (i : S10000x40.Idx) :
    ∃ t : Fin cfg4.N, (cfg4.win 5).flush t = true ∧ i ∈ ((cfg4.win 5).blk t).view.set := by
  refine ⟨t4_0, flush4_5 t4_0, ?_⟩
  show i ∈ ((View.whole main_v7).slice (win4_5.rect t4_0)).set
  rw [View.set_slice_whole, Rect.mem_set_unit]
  intro a
  match a with
  | ⟨0, _⟩ => show 0 * 10000 ≤ (i 0).val ∧ (i 0).val < 0 * 10000 + 10000; have h : (i 0).val < 10000 := (i 0).isLt; omega
  | ⟨1, _⟩ => show 0 * 40 ≤ (i 1).val ∧ (i 1).val < 0 * 40 + 40; have h : (i 1).val < 40 := (i 1).isLt; omega

/-- After the last kernel its output array holds the stored value. -/
theorem arr4 (c : Dev nD) :
    (dat4 (F := Ideal) V c).arrAt 5 cfg4.N
      = k4_pay1 (F := Ideal) (V c main_v1) (V c main_v4) (V c main_v3) (V c main_v5) (V c main_v6) :=
  (dat4 V c).arrAt_eq_of_cover 5 _ (fun t _ => flushed4 V c t) cover4

end Cert.Arrays

end
-- ==== Proof.Blocks.lean ====
/-
  What the two streamed kernels leave in their output arrays.

  Each runs over 25 grid points. Point t fetches rows 400 t to 400 t + 399 of P (all 10000 columns), sees the whole of
  s at every point, and writes back rows 400 t to 400 t + 399 of its output: entry (y0, y1) of that block is the sum over
  k of P(400 t + y0, k) s(k, y1), joined with zero. That is block t of the whole-array function max(P s, 0), read
  through the block's rectangle; row r of the output lies in the block of point r / 400, so the 25 blocks cover the array
  and it ends at max(P s, 0). The second kernel does this for s the first kernel's output, the fourth for the third's.
-/
import proofs.«160750_g30322469110222_cont_sun_m_817_2_alg».proof.Proof.Gen.KernelIdeal.Frame
import proofs.«160750_g30322469110222_cont_sun_m_817_2_alg».proof.Proof.Products
import Idealize.ShloMosaic.Lib.Pipeline.Value

set_option maxRecDepth 16384

noncomputable section

namespace Cert.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The specification's max(P s, 0) at any index. -/
theorem propagated_at (P : FVec Ideal Cert.ReferenceIdeal.S10000x10000 .f32) (s : FVec Ideal Cert.ReferenceIdeal.S10000x128 .f32)
    (i : Cert.ReferenceIdeal.S10000x128.Idx) :
    Cert.Spec.propagated (F := Ideal) P s i
      = max (∑ k : Fin 10000, P (ix2 (i 0) k) * s (ix2 k (i 1))) (Ideal.ofBits .f32 0x00000000#32) := by
  obtain ⟨p, q, rfl⟩ : ∃ (p : Fin 10000) (q : Fin 128), i = ix2 p q := ⟨i 0, i 1, eq_ix2 i⟩
  exact Cert.Stages.propagated_apply P s p q

/-! ## The second kernel -/

/-- One block of max(P s, 0) at any index of the block. -/
theorem big_product1_at (Pb : Vec Ideal S400x10000 .f32) (s : Vec Ideal S10000x128 .bf16) (y : S400x128.Idx) :
    (k1_pay1 (F := Ideal) Pb s : S400x128.Idx → EReal) y
      = max (∑ k : Fin 10000, (Pb (ix2 (y 0) k) : EReal) * (s (ix2 k (y 1)) : EReal)) (Ideal.ofBits .f32 0x00000000#32) := by
  obtain ⟨p, q, rfl⟩ : ∃ (p : Fin 400) (q : Fin 128), y = ix2 p q := ⟨y 0, y 1, eq_ix2 y⟩
  exact Cert.Stages.big_product1 Pb s p q

/-- The index maps over the 25 points: P's block and the output's block move together down the rows; s stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of max(P s, 0): rows 400 t to 400 t + 399, each entry the row of P against the
    column of s, joined with zero. -/
theorem flushed1 (c : Dev nD) (t : Fin cfg1.N) :
    (dat1 (F := Ideal) V c).flushed 2 t
      = ((cfg1.win 2).blk t).view.read (Elt Ideal) (Cert.Spec.propagated (F := Ideal) (V c main_arg1) (V c main_v0)) := by
  show (cfg1.win 2).cut (grid1.coords t) ((dat1 V c).after 2 t) = _
  rw [after1_2]
  unfold out1_2
  rw [View.canon_unit_zero zero_offsets]
  simp only [View.ld_unit_zero (S := S400x10000) zero_offsets, View.ld_unit_zero (S := S10000x128) zero_offsets]
  funext j
  show (k1_pay1 (F := Ideal) (iblk1 V c 0 t) (iblk1 V c 1 t) : S400x128.Idx → EReal) ((win1 2).xinj (grid1.coords t) j)
    = Cert.Spec.propagated (F := Ideal) (V c main_arg1) (V c main_v0) (((cfg1.win 2).blk t).view.emb j)
  refine (big_product1_at (iblk1 V c 0 t) (iblk1 V c 1 t) _).trans
    (Eq.symm ((propagated_at (V c main_arg1) (V c main_v0) _).trans ?_))
  refine congrArg (fun s => max s _) (Finset.sum_congr rfl fun k _ => ?_)
  obtain ⟨e0, e1, e2, e3, e4, e5⟩ := idx_facts1 t
  have hP : V c main_arg1 (ix2 ((((cfg1.win 2).blk t).view.emb j) 0) k)
      = (iblk1 (F := Ideal) V c 0 t : S400x10000.Idx → EReal) (ix2 (((win1 2).xinj (grid1.coords t) j) 0) k) := by
    show _ = V c main_arg1 (((cfg1.win 0).blk t).view.emb (ix2 (((win1 2).xinj (grid1.coords t) j) 0) k))
    refine congrArg _ (funext fun a => Fin.ext ?_)
    match a with
    | ⟨0, _⟩ => show win1_2.index t (0 : Fin 2) * 400 + 1 * (j 0).val = win1_0.index t (0 : Fin 2) * 400 + 1 * (j 0).val; omega
    | ⟨1, _⟩ => show k.val = win1_0.index t (1 : Fin 2) * 10000 + 1 * k.val; omega
  have hS : V c main_v0 (ix2 k ((((cfg1.win 2).blk t).view.emb j) 1))
      = (iblk1 (F := Ideal) V c 1 t : S10000x128.Idx → EReal) (ix2 k (((win1 2).xinj (grid1.coords t) j) 1)) := by
    show _ = V c main_v0 (((cfg1.win 1).blk t).view.emb (ix2 k (((win1 2).xinj (grid1.coords t) j) 1)))
    refine congrArg _ (funext fun a => Fin.ext ?_)
    match a with
    | ⟨0, _⟩ => show k.val = win1_1.index t (0 : Fin 2) * 10000 + 1 * k.val; omega
    | ⟨1, _⟩ => show win1_2.index t (1 : Fin 2) * 128 + 1 * (j 1).val = win1_1.index t (1 : Fin 2) * 128 + 1 * (j 1).val; omega
  rw [hP, hS]

/-- Row r lies in the block of point r / 400: the 25 blocks of 400 rows cover the 10000 rows. -/
theorem cover1 (i : S10000x128.Idx) :
    ∃ t : Fin cfg1.N, (cfg1.win 2).flush t = true ∧ i ∈ ((cfg1.win 2).blk t).view.set := by
  have hi0 : (i 0).val < 10000 := (i 0).isLt
  have hN : grid1.N = 25 := N_1
  have ht : (i 0).val / 400 < cfg1.N := by rw [show cfg1.N = 25 from N_1]; omega
  obtain ⟨e0, e1, e2, e3, e4, e5⟩ := idx_facts1 ⟨(i 0).val / 400, ht⟩
  refine ⟨⟨(i 0).val / 400, ht⟩, flush1_2 _, ?_⟩
  show i ∈ ((View.whole main_v1).slice (win1_2.rect ⟨(i 0).val / 400, ht⟩)).set
  rw [View.set_slice_whole, Rect.mem_set_unit]
  intro a
  have e4' : win1_2.index ⟨(i 0).val / 400, ht⟩ (0 : Fin 2) = (i 0).val / 400 := e4
  match a with
  | ⟨0, _⟩ =>
    show win1_2.index ⟨(i 0).val / 400, ht⟩ (0 : Fin 2) * 400 ≤ (i 0).val
      ∧ (i 0).val < win1_2.index ⟨(i 0).val / 400, ht⟩ (0 : Fin 2) * 400 + 400
    omega
  | ⟨1, _⟩ =>
    show win1_2.index ⟨(i 0).val / 400, ht⟩ (1 : Fin 2) * 128 ≤ (i 1).val
      ∧ (i 1).val < win1_2.index ⟨(i 0).val / 400, ht⟩ (1 : Fin 2) * 128 + 128
    have hi1 : (i 1).val < 128 := (i 1).isLt
    omega

/-- After the kernel its output array holds max(P s, 0). -/
theorem arr1 (c : Dev nD) :
    (dat1 (F := Ideal) V c).arrAt 2 cfg1.N = Cert.Spec.propagated (F := Ideal) (V c main_arg1) (V c main_v0) :=
  (dat1 V c).arrAt_eq_of_cover 2 _ (fun t _ => flushed1 V c t) cover1

/-! ## The fourth kernel -/

/-- One block of max(P s, 0) at any index of the block. -/
theorem big_product3_at (Pb : Vec Ideal S400x10000 .f32) (s : Vec Ideal S10000x128 .bf16) (y : S400x128.Idx) :
    (k3_pay1 (F := Ideal) Pb s : S400x128.Idx → EReal) y
      = max (∑ k : Fin 10000, (Pb (ix2 (y 0) k) : EReal) * (s (ix2 k (y 1)) : EReal)) (Ideal.ofBits .f32 0x00000000#32) := by
  obtain ⟨p, q, rfl⟩ : ∃ (p : Fin 400) (q : Fin 128), y = ix2 p q := ⟨y 0, y 1, eq_ix2 y⟩
  exact Cert.Stages.big_product3 Pb s p q

/-- The index maps over the 25 points: P's block and the output's block move together down the rows; s stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of max(P s, 0): rows 400 t to 400 t + 399, each entry the row of P against the
    column of s, joined with zero. -/
theorem flushed3 (c : Dev nD) (t : Fin cfg3.N) :
    (dat3 (F := Ideal) V c).flushed 2 t
      = ((cfg3.win 2).blk t).view.read (Elt Ideal) (Cert.Spec.propagated (F := Ideal) (V c main_arg1) (V c main_v2)) := by
  show (cfg3.win 2).cut (grid3.coords t) ((dat3 V c).after 2 t) = _
  rw [after3_2]
  unfold out3_2
  rw [View.canon_unit_zero zero_offsets]
  simp only [View.ld_unit_zero (S := S400x10000) zero_offsets, View.ld_unit_zero (S := S10000x128) zero_offsets]
  funext j
  show (k3_pay1 (F := Ideal) (iblk3 V c 0 t) (iblk3 V c 1 t) : S400x128.Idx → EReal) ((win3 2).xinj (grid3.coords t) j)
    = Cert.Spec.propagated (F := Ideal) (V c main_arg1) (V c main_v2) (((cfg3.win 2).blk t).view.emb j)
  refine (big_product3_at (iblk3 V c 0 t) (iblk3 V c 1 t) _).trans
    (Eq.symm ((propagated_at (V c main_arg1) (V c main_v2) _).trans ?_))
  refine congrArg (fun s => max s _) (Finset.sum_congr rfl fun k _ => ?_)
  obtain ⟨e0, e1, e2, e3, e4, e5⟩ := idx_facts3 t
  have hP : V c main_arg1 (ix2 ((((cfg3.win 2).blk t).view.emb j) 0) k)
      = (iblk3 (F := Ideal) V c 0 t : S400x10000.Idx → EReal) (ix2 (((win3 2).xinj (grid3.coords t) j) 0) k) := by
    show _ = V c main_arg1 (((cfg3.win 0).blk t).view.emb (ix2 (((win3 2).xinj (grid3.coords t) j) 0) k))
    refine congrArg _ (funext fun a => Fin.ext ?_)
    match a with
    | ⟨0, _⟩ => show win3_2.index t (0 : Fin 2) * 400 + 1 * (j 0).val = win3_0.index t (0 : Fin 2) * 400 + 1 * (j 0).val; omega
    | ⟨1, _⟩ => show k.val = win3_0.index t (1 : Fin 2) * 10000 + 1 * k.val; omega
  have hS : V c main_v2 (ix2 k ((((cfg3.win 2).blk t).view.emb j) 1))
      = (iblk3 (F := Ideal) V c 1 t : S10000x128.Idx → EReal) (ix2 k (((win3 2).xinj (grid3.coords t) j) 1)) := by
    show _ = V c main_v2 (((cfg3.win 1).blk t).view.emb (ix2 k (((win3 2).xinj (grid3.coords t) j) 1)))
    refine congrArg _ (funext fun a => Fin.ext ?_)
    match a with
    | ⟨0, _⟩ => show k.val = win3_1.index t (0 : Fin 2) * 10000 + 1 * k.val; omega
    | ⟨1, _⟩ => show win3_2.index t (1 : Fin 2) * 128 + 1 * (j 1).val = win3_1.index t (1 : Fin 2) * 128 + 1 * (j 1).val; omega
  rw [hP, hS]

/-- Row r lies in the block of point r / 400: the 25 blocks of 400 rows cover the 10000 rows. -/
theorem cover3 (i : S10000x128.Idx) :
    ∃ t : Fin cfg3.N, (cfg3.win 2).flush t = true ∧ i ∈ ((cfg3.win 2).blk t).view.set := by
  have hi0 : (i 0).val < 10000 := (i 0).isLt
  have hN : grid3.N = 25 := N_3
  have ht : (i 0).val / 400 < cfg3.N := by rw [show cfg3.N = 25 from N_3]; omega
  obtain ⟨e0, e1, e2, e3, e4, e5⟩ := idx_facts3 ⟨(i 0).val / 400, ht⟩
  refine ⟨⟨(i 0).val / 400, ht⟩, flush3_2 _, ?_⟩
  show i ∈ ((View.whole main_v3).slice (win3_2.rect ⟨(i 0).val / 400, ht⟩)).set
  rw [View.set_slice_whole, Rect.mem_set_unit]
  intro a
  have e4' : win3_2.index ⟨(i 0).val / 400, ht⟩ (0 : Fin 2) = (i 0).val / 400 := e4
  match a with
  | ⟨0, _⟩ =>
    show win3_2.index ⟨(i 0).val / 400, ht⟩ (0 : Fin 2) * 400 ≤ (i 0).val
      ∧ (i 0).val < win3_2.index ⟨(i 0).val / 400, ht⟩ (0 : Fin 2) * 400 + 400
    omega
  | ⟨1, _⟩ =>
    show win3_2.index ⟨(i 0).val / 400, ht⟩ (1 : Fin 2) * 128 ≤ (i 1).val
      ∧ (i 1).val < win3_2.index ⟨(i 0).val / 400, ht⟩ (1 : Fin 2) * 128 + 128
    have hi1 : (i 1).val < 128 := (i 1).isLt
    omega

/-- After the kernel its output array holds max(P s, 0). -/
theorem arr3 (c : Dev nD) :
    (dat3 (F := Ideal) V c).arrAt 2 cfg3.N = Cert.Spec.propagated (F := Ideal) (V c main_arg1) (V c main_v2) :=
  (dat3 V c).arrAt_eq_of_cover 2 _ (fun t _ => flushed3 V c t) cover3

end Cert.Blocks

end
-- ==== Proof.LibPairConcat.lean ====
/-
  Two arrays joined along an axis, read at an entry, for matrices: two blocks side by side (axis 1) and two blocks one
  above the other (axis 0). An entry whose coordinate on the joined axis lies below the first block's extent is the
  first block's entry at the same coordinates; an entry at or past it is the second block's, the first extent less.
  And the sum this splits: a sum over a + b places is the sum over the first a plus the sum over the last b.
  General in the extents and the element type.
-/
import Idealize.ShloMosaic.Lib.Pipeline.Value
import Idealize.ShloMosaic.Lib.ValueIdx

namespace Cert.PairConcat

open Idealize.ShloMosaic Idealize.ShloMosaic.ValueIdx

variable {α : Type}

/-- Two blocks side by side: a column of the first block. -/
theorem concat_cols_left {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (k : Fin a) (hk : k.val < c) :
    concatenate ⟨2, ![m, c]⟩ 1 [⟨⟨2, ![m, a]⟩, x₁⟩, ⟨⟨2, ![m, b]⟩, x₂⟩] h (ix2 p ⟨k.val, hk⟩) = x₁ (ix2 p k) := by
  refine concatenate_pair_apply_left (t := ⟨2, ![m, c]⟩) (1 : Fin 2) x₁ x₂ h _ rfl (ix2 p k) fun bx => ?_
  match bx with
  | ⟨0, _⟩ => rfl
  | ⟨1, _⟩ => rfl

/-- Two blocks side by side: a column of the second block. -/
theorem concat_cols_right {m a b c : ℕ} (x₁ : (⟨2, ![m, a]⟩ : Shape).Idx → α) (x₂ : (⟨2, ![m, b]⟩ : Shape).Idx → α)
    (h : Shape.Concatenates [(⟨2, ![m, a]⟩ : Shape), ⟨2, ![m, b]⟩] ⟨2, ![m, c]⟩ 1) (p : Fin m) (k : Fin b) (hk : a + k.val < c) :
    concatenate ⟨2, ![m, c]⟩ 1 [⟨⟨2, ![m, a]⟩, x₁⟩, ⟨⟨2, ![m, b]⟩, x₂⟩] h (ix2 p ⟨a + k.val, hk⟩) = x₂ (ix2 p k) := by
  refine concatenate_pair_apply_right (t := ⟨2, ![m, c]⟩) (1 : Fin 2) x₁ x₂ h _ rfl rfl (ix2 p k) (fun bx hb => ?_) ?_
  · match bx with
    | ⟨0, _⟩ => rfl
    | ⟨1, _⟩ => exact absurd rfl hb
  · show k.val + a = a + k.val
    omega

/-- Two blocks one above the other: a row of the first block. -/
theorem concat_rows_left {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (k : Fin a) (hk : k.val < c) (q : Fin n) :
    concatenate ⟨2, ![c, n]⟩ 0 [⟨⟨2, ![a, n]⟩, x₁⟩, ⟨⟨2, ![b, n]⟩, x₂⟩] h (ix2 ⟨k.val, hk⟩ q) = x₁ (ix2 k q) := by
  refine concatenate_pair_apply_left (t := ⟨2, ![c, n]⟩) (0 : Fin 2) x₁ x₂ h _ rfl (ix2 k q) fun bx => ?_
  match bx with
  | ⟨0, _⟩ => rfl
  | ⟨1, _⟩ => rfl

/-- Two blocks one above the other: a row of the second block. -/
theorem concat_rows_right {a b c n : ℕ} (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ 0) (k : Fin b) (hk : a + k.val < c) (q : Fin n) :
    concatenate ⟨2, ![c, n]⟩ 0 [⟨⟨2, ![a, n]⟩, x₁⟩, ⟨⟨2, ![b, n]⟩, x₂⟩] h (ix2 ⟨a + k.val, hk⟩ q) = x₂ (ix2 k q) := by
  refine concatenate_pair_apply_right (t := ⟨2, ![c, n]⟩) (0 : Fin 2) x₁ x₂ h _ rfl rfl (ix2 k q) (fun bx hb => ?_) ?_
  · match bx with
    | ⟨0, _⟩ => exact absurd rfl hb
    | ⟨1, _⟩ => rfl
  · show k.val + a = a + k.val
    omega

/-- A sum over `a + b` places is the sum over the first `a` plus the sum over the last `b`. -/
theorem sum_split {M : Type*} [AddCommMonoid M] (a b c : ℕ) (hc : a + b = c) (f : Fin c → M) :
    ∑ k : Fin c, f k = ∑ k : Fin a, f ⟨k.val, by have := k.isLt; omega⟩ + ∑ k : Fin b, f ⟨a + k.val, by have := k.isLt; omega⟩ := by
  subst hc
  rw [Fin.sum_univ_add]
  rfl

end Cert.PairConcat
-- ==== Proof.LibVecHost.lean ====
/-
  A kernel's vector operations against the host program's operations, as equalities of WHOLE arrays.

  A kernel body and a host program spell the same array in different vocabularies: the body casts a vector
  [n] to the one-row matrix [1, n] (or to the one-column matrix [n, 1]) and broadcasts it, the host uses
  broadcast_in_dim for both steps; the body splats a scalar constant, the host broadcasts a rank-zero constant;
  the body reduces with an accumulator that is the operation's neutral element, the host reduces from an initial
  value; the body multiplies narrowed operands into a zero accumulator, the host takes a dot product of the
  operands themselves. Each lemma here says that one such pair is ONE array, general in the extents (and in the
  element type where no arithmetic is involved), so that a proof rewrites a body's term into the host's
  vocabulary operation by operation and never opens an array at an index.

  The layout lemmas hold at every float instance; the arithmetic ones are stated at the ideal values, where a
  narrowing is the identity, a quotient is a quotient whichever unit computes it, and a sum has no order.
-/
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

namespace Idealize.ShloMosaic.VecHost

open Idealize.ShloMosaic Idealize.ShloMosaic.ValueIdx

/-! ## Layouts: one row, one column -/

section Layout
variable {α : Type}

/-- A vector [n] cast to the one-row matrix [1, n] is the vector placed on axis 1 of that matrix. -/
theorem shapeCast_row_eq_broadcastInDim {n : ℕ} (x : (⟨1, ![n]⟩ : Shape).Idx → α)
    (h : (⟨1, ![n]⟩ : Shape).ShapeCasts ⟨2, ![1, n]⟩)
    (hr : (⟨1, ![n]⟩ : Shape).BroadcastsInDim ⟨2, ![1, n]⟩ ![1]) :
    shapeCast ⟨2, ![1, n]⟩ x h = broadcastInDim ⟨2, ![1, n]⟩ ![1] hr x := by
  funext i
  obtain ⟨u, c, rfl⟩ : ∃ (u : Fin 1) (c : Fin n), i = ix2 u c := ⟨i 0, i 1, eq_ix2 i⟩
  rw [shapeCast_a_1a_apply]
  refine (broadcastInDim_apply ![1] hr x (ix2 u c) (ix1 c) fun a => ?_).symm
  match a with
  | ⟨0, _⟩ =>
    show c.val = if n = 1 then 0 else c.val
    split
    · have := c.isLt; omega
    · rfl

/-- A one-row matrix [1, n] broadcast down m rows, by the kernel's broadcast and by the host's. -/
theorem broadcastTo_oneRow_eq_broadcastInDim {m n : ℕ} (y : (⟨2, ![1, n]⟩ : Shape).Idx → α)
    (hb : (⟨2, ![1, n]⟩ : Shape).Broadcasts ⟨2, ![m, n]⟩)
    (hbc : (⟨2, ![1, n]⟩ : Shape).BroadcastsInDim ⟨2, ![m, n]⟩ ![0, 1]) :
    broadcastTo ⟨2, ![m, n]⟩ y hb = broadcastInDim ⟨2, ![m, n]⟩ ![0, 1] hbc y := by
  funext i
  obtain ⟨r, t, rfl⟩ : ∃ (r : Fin m) (t : Fin n), i = ix2 r t := ⟨i 0, i 1, eq_ix2 i⟩
  rw [broadcastTo_1b_ab_apply, broadcastInDim_oneRow_apply]

/-- A vector [m] cast to the one-column matrix [m, 1] is the vector placed on axis 0 of that matrix. -/
theorem shapeCast_col_eq_broadcastInDim {m : ℕ} (x : (⟨1, ![m]⟩ : Shape).Idx → α)
    (h : (⟨1, ![m]⟩ : Shape).ShapeCasts ⟨2, ![m, 1]⟩)
    (hc : (⟨1, ![m]⟩ : Shape).BroadcastsInDim ⟨2, ![m, 1]⟩ ![0]) :
    shapeCast ⟨2, ![m, 1]⟩ x h = broadcastInDim ⟨2, ![m, 1]⟩ ![0] hc x := by
  funext i
  obtain ⟨r, u, rfl⟩ : ∃ (r : Fin m) (u : Fin 1), i = ix2 r u := ⟨i 0, i 1, eq_ix2 i⟩
  have e1 : shapeCast ⟨2, ![m, 1]⟩ x h (ix2 r u) = x (ix1 r) :=
    shapeCast_apply x h _ _ (by
      have hu : u.val = 0 := by omega
      rw [Shape.rowMajor_val_two, Shape.rowMajor_val_one]
      show r.val = r.val * 1 + u.val
      omega)
  refine e1.trans (broadcastInDim_apply ![0] hc x (ix2 r u) (ix1 r) fun a => ?_).symm
  match a with
  | ⟨0, _⟩ =>
    show r.val = if m = 1 then 0 else r.val
    split
    · have := r.isLt; omega
    · rfl

/-- A one-column matrix [m, 1] broadcast along n columns, by the kernel's broadcast and by the host's. -/
theorem broadcastTo_oneCol_eq_broadcastInDim {m n : ℕ} (y : (⟨2, ![m, 1]⟩ : Shape).Idx → α)
    (hb : (⟨2, ![m, 1]⟩ : Shape).Broadcasts ⟨2, ![m, n]⟩)
    (hbc : (⟨2, ![m, 1]⟩ : Shape).BroadcastsInDim ⟨2, ![m, n]⟩ ![0, 1]) :
    broadcastTo ⟨2, ![m, n]⟩ y hb = broadcastInDim ⟨2, ![m, n]⟩ ![0, 1] hbc y := by
  funext i
  obtain ⟨r, t, rfl⟩ : ∃ (r : Fin m) (t : Fin n), i = ix2 r t := ⟨i 0, i 1, eq_ix2 i⟩
  have e1 : broadcastTo ⟨2, ![m, n]⟩ y hb (ix2 r t) = y (ix2 r (0 : Fin 1)) := by
    refine broadcastTo_apply y hb (ix2 r t) (ix2 r (0 : Fin 1)) fun ax => ?_
    match ax with
    | ⟨0, _⟩ =>
      show r.val = if m = 1 then 0 else r.val
      split
      · have := r.isLt; omega
      · rfl
    | ⟨1, _⟩ =>
      show 0 = if (1 : ℕ) = 1 then 0 else t.val
      rw [if_pos rfl]
  refine e1.trans (broadcastInDim_apply ![0, 1] hbc y (ix2 r t) (ix2 r (0 : Fin 1)) fun ax => ?_).symm
  match ax with
  | ⟨0, _⟩ =>
    show r.val = if m = 1 then 0 else r.val
    split
    · have := r.isLt; omega
    · rfl
  | ⟨1, _⟩ =>
    show 0 = if (1 : ℕ) = 1 then 0 else t.val
    rw [if_pos rfl]

end Layout

/-! ## Constants -/

/-- A kernel's splat of the scalar with bits b is the host's broadcast of the rank-zero constant with those bits. -/
theorem broadcast_ofBits_eq_broadcastInDim {F : FTy → Type} [FloatOps F] {s t : Shape} {φ : FTy}
    (dims : Fin s.rank → Fin t.rank) (h : s.BroadcastsInDim t dims) (b : BitVec φ.bits) :
    broadcast t (Scalar.ofBits (F := F) φ b) = broadcastInDim t dims h (constant s φ b : FVec F s φ) :=
  (broadcastInDim_constant dims h b).symm

/-! ## Arithmetic at the ideal values -/

section AtIdeal
variable {s t u : Shape} {φ : FTy}

/-- The quotient, the reciprocal square root and the exponential are the same functions on the vector unit and on
    the host. -/
theorem divf_eq_hostDivf (x y : FVec Ideal s φ) : divf x y = Host.divf x y := rfl
theorem rsqrt_eq_hostRsqrt (x : FVec Ideal s φ) : rsqrt x = Host.rsqrt x := rfl
theorem exp_eq_hostExp (x : FVec Ideal s φ) : exp x = Host.exp x := rfl

/-- A kernel's sum over one axis from the zero accumulator is the host's sum over that axis from the zero constant. -/
theorem multiReduction_add_eq_hostReduceAdd_zero {a : Fin s.rank} (src : FVec Ideal s .f32)
    (h : s.Reduces [a] t) (hφ : FKind.Formats .f32) (hacc : (0x00000000#32 : BitVec 32) = 0x00000000#32)
    (h' : s.ReducesTo [a] t) (hu : 0 < u.numel) :
    multiReduction .add [a] t src 0x00000000#32 h hφ hacc
      = Host.reduceAdd src (constant u .f32 0x00000000#32 : FVec Ideal u .f32) h' hu :=
  multiReduction_add_eq_hostReduceAdd src 0x00000000#32 h hφ hacc (constant u .f32 0x00000000#32) h' hu
    (by show Ideal.ofBits .f32 0x00000000#32 = 0; exact Ideal.ofBits_zero_f32)

/-- A kernel's product of operands narrowed to bf16, accumulated into the zero splat, is the host's product of the
    operands themselves: at the ideal values the narrowing changes nothing. -/
theorem matmul_truncf_zero_eq_dotGeneral {sl sr so : Shape} (d : DotDims sl sr so) (prec : Option ContractPrecision)
    (l : FVec Ideal sl .f32) (r : FVec Ideal sr .f32) (hl hr : FTy.bits .bf16 < FTy.bits .f32) :
    matmul d prec (truncf .bf16 l hl) (truncf .bf16 r hr) (constant so .f32 0x00000000#32) = Host.dotGeneral d prec l r := by
  funext j
  show FloatOps.matmul d prec (truncf .bf16 l hl) (truncf .bf16 r hr) (constant so .f32 0x00000000#32) j
    = FloatOps.dotGeneral d prec _ l r j
  rw [Ideal.matmul_constant_zero_apply, Ideal.dotGeneral_apply]
  rfl

/-- The bit pattern 0x44000000 is the number 512. -/
theorem ofBits_512 : Ideal.ofBits .f32 0x44000000#32 = ((512 : ℝ) : EReal) := by
  simp [Ideal.ofBits, Ideal.ieee]
  rw [← EReal.coe_mul]
  norm_num

end AtIdeal

/-! ## A maximum over axes, at any float instance -/

/-- A kernel's maximum over some axes from the accumulator −∞ is the host's maximum over them from the constant −∞:
    the two fold the same elements in the same order from the same value. -/
theorem multiReduction_maximumf_eq_hostReduce {F : FTy → Type} [FloatOps F] {s t u : Shape} {axes : List (Fin s.rank)}
    (src : FVec F s .f32) (h : s.Reduces axes t) (hφ : FKind.Formats .f32)
    (hacc : (0xFF800000#32 : BitVec 32) = 0xFF800000#32) (h' : s.ReducesTo axes t) (hu : 0 < u.numel) :
    multiReduction .maximumf axes t src 0xFF800000#32 h hφ hacc
      = Host.reduce FloatOps.maximumf src (constant u .f32 0xFF800000#32 : FVec F u .f32) h' hu := rfl

end Idealize.ShloMosaic.VecHost
-- ==== Proof.Head.lean ====
/-
  The last kernel against the specification's scores and log-softmax.

  Scores. The kernel multiplies h0 by the upper 128 rows of the final matrix and h1 by its lower 128 rows and adds the
  two products; the specification multiplies [h0 h1] by the whole matrix. Entry (p, q) of the latter is a sum over 256
  places, which is the sum over the first 128 (where [h0 h1] is h0 and the row of the matrix is a row of its upper half)
  plus the sum over the last 128 (h1 and the lower half): only that a sum may be taken in two runs is used, which holds
  at the infinities too. The bias is added as a row laid along every row, which the kernel spells as a broadcast of the
  bias re-cast to one row and the host as two placements along axes.

  Log-softmax. Both sides take each row's maximum from -inf, subtract it, exponentiate, sum from zero, take the
  logarithm and subtract. The kernel's reductions, its cast of a vector to a column and its broadcast of a column are the
  host's reduce, placement on axis 0 and placement on axes (0, 1); the specification joins the maximum once more with
  -inf, which changes nothing since -inf is the least extended real.
-/
import proofs.«160750_g30322469110222_cont_sun_m_817_2_alg».proof.KernelIdeal
import proofs.«160750_g30322469110222_cont_sun_m_817_2_alg».proof.Proof.Gen.KernelIdeal.Skeleton
import proofs.«160750_g30322469110222_cont_sun_m_817_2_alg».proof.Proof.Spec
import proofs.«160750_g30322469110222_cont_sun_m_817_2_alg».proof.Proof.LibPlainDot
import proofs.«160750_g30322469110222_cont_sun_m_817_2_alg».proof.Proof.LibPairConcat
import proofs.«160750_g30322469110222_cont_sun_m_817_2_alg».proof.Proof.LibVecHost
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

noncomputable section

namespace Cert.Head

open Idealize.ShloMosaic Idealize.ShloMosaic.ValueIdx

/-- The kernel's scores from the two layers, the two halves of the final matrix and the bias as one row. -/
def kernelScores (h0 h1 : FVec Ideal Cert.KernelIdeal.S10000x128 .f32) (whi wlo : FVec Ideal Cert.KernelIdeal.S128x40 .f32)
    (brow : FVec Ideal Cert.KernelIdeal.S1x40 .f32) : FVec Ideal Cert.KernelIdeal.S10000x40 .f32 :=
  addf (addf (matmul Cert.KernelIdeal.dot_S10000x128_S128x40_S10000x40_1_0_0_1_n_n none h0 whi (constant Cert.KernelIdeal.S10000x40 .f32 0x00000000#32))
      (matmul Cert.KernelIdeal.dot_S10000x128_S128x40_S10000x40_1_0_0_1_n_n none h1 wlo (constant Cert.KernelIdeal.S10000x40 .f32 0x00000000#32)))
    (broadcastTo Cert.KernelIdeal.S10000x40 brow Cert.KernelIdeal.Facts₀.broadcasts_S1x40_S10000x40)

/-- The kernel's centred scores: each row less its maximum. -/
def kernelCentred (z : FVec Ideal Cert.KernelIdeal.S10000x40 .f32) : FVec Ideal Cert.KernelIdeal.S10000x40 .f32 :=
  subf z (broadcastTo Cert.KernelIdeal.S10000x40
    (shapeCast Cert.KernelIdeal.S10000x1 (multiReduction .maximumf [1] Cert.KernelIdeal.S10000 z 0xFF800000#32 Cert.KernelIdeal.Facts₀.reduces_S10000x40_S10000 (.inl rfl) rfl)
      Cert.KernelIdeal.Facts₀.shapeCasts_S10000_S10000x1) Cert.KernelIdeal.Facts₀.broadcasts_S10000x1_S10000x40)

/-- The kernel's log-softmax of its scores. -/
def kernelLogSoftmax (z : FVec Ideal Cert.KernelIdeal.S10000x40 .f32) : FVec Ideal Cert.KernelIdeal.S10000x40 .f32 :=
  subf (kernelCentred z) (broadcastTo Cert.KernelIdeal.S10000x40
    (log (shapeCast Cert.KernelIdeal.S10000x1
      (multiReduction .add [1] Cert.KernelIdeal.S10000 (exp (kernelCentred z)) 0x00000000#32 Cert.KernelIdeal.Facts₀.reduces_S10000x40_S10000 (.inl rfl) rfl)
      Cert.KernelIdeal.Facts₀.shapeCasts_S10000_S10000x1)) Cert.KernelIdeal.Facts₀.broadcasts_S10000x1_S10000x40)

/-- The last kernel's stored value is its log-softmax of its scores. -/
theorem payload_eq (h0 : Vec Ideal Cert.KernelIdeal.S10000x128 .f32) (whi : Vec Ideal Cert.KernelIdeal.S128x40 .f32) (h1 : Vec Ideal Cert.KernelIdeal.S10000x128 .f32)
    (wlo : Vec Ideal Cert.KernelIdeal.S128x40 .f32) (brow : Vec Ideal Cert.KernelIdeal.S1x40 .f32) :
    Cert.KernelIdeal.Gen.k4_pay1 (F := Ideal) h0 whi h1 wlo brow = kernelLogSoftmax (kernelScores h0 h1 whi wlo brow) := by
  unfold Cert.KernelIdeal.Gen.k4_pay1 kernelLogSoftmax kernelCentred kernelScores
  simp only [shapeCast_self]

/-- -inf is the least extended real: joining with it changes nothing. -/
theorem max_negInf (x : EReal) : max (Ideal.ofBits .f32 0xFF800000#32) x = x := by
  have h : Ideal.ofBits .f32 0xFF800000#32 = ⊥ := by simp [Ideal.ofBits, Ideal.ieee]
  rw [h]; exact max_eq_right bot_le

/-- A vector joined entry by entry with the constant -inf vector is the vector. -/
theorem joined_negInf (x : FVec Ideal Cert.ReferenceIdeal.S10000 .f32) :
    maximumf (broadcastInDim Cert.ReferenceIdeal.S10000 ![] Cert.ReferenceIdeal.Facts₀.bcast_S_S10000 (constant Cert.ReferenceIdeal.S_ .f32 0xFF800000#32)) x = x := by
  funext i
  show max (broadcastInDim Cert.ReferenceIdeal.S10000 ![] Cert.ReferenceIdeal.Facts₀.bcast_S_S10000 (constant Cert.ReferenceIdeal.S_ .f32 0xFF800000#32 : FVec Ideal _ .f32) i) (x i) = x i
  rw [broadcastInDim_apply _ _ (constant Cert.ReferenceIdeal.S_ .f32 0xFF800000#32 : FVec Ideal _ .f32) i (fun a => a.elim0) (fun a => a.elim0)]
  exact max_negInf _

/-- The kernel's centred scores are the specification's. -/
theorem kernelCentred_eq (z : FVec Ideal Cert.KernelIdeal.S10000x40 .f32) : kernelCentred z = Cert.Spec.centred (F := Ideal) z := by
  unfold kernelCentred Cert.Spec.centred Cert.Spec.rowMax
  rw [joined_negInf,
    VecHost.multiReduction_maximumf_eq_hostReduce (u := Cert.ReferenceIdeal.S_) z _ _ _ Cert.ReferenceIdeal.Facts₀.reducesTo_S10000x40_S10000_d1 Cert.ReferenceIdeal.Facts₀.h_S_,
    VecHost.shapeCast_col_eq_broadcastInDim _ _ Cert.ReferenceIdeal.Facts₀.bcast_S10000_S10000x1_0,
    VecHost.broadcastTo_oneCol_eq_broadcastInDim _ _ Cert.ReferenceIdeal.Facts₀.bcast_S10000x1_S10000x40_0_1]

/-- The kernel's log-softmax is the specification's. -/
theorem kernelLogSoftmax_eq (z : FVec Ideal Cert.KernelIdeal.S10000x40 .f32) : kernelLogSoftmax z = Cert.Spec.logSoftmax (F := Ideal) z := by
  unfold kernelLogSoftmax Cert.Spec.logSoftmax
  rw [kernelCentred_eq,
    VecHost.multiReduction_add_eq_hostReduceAdd_zero (u := Cert.ReferenceIdeal.S_) _ _ _ _ Cert.ReferenceIdeal.Facts₀.reducesTo_S10000x40_S10000_d1 Cert.ReferenceIdeal.Facts₀.h_S_,
    VecHost.shapeCast_col_eq_broadcastInDim _ _ Cert.ReferenceIdeal.Facts₀.bcast_S10000_S10000x1_0,
    VecHost.broadcastTo_oneCol_eq_broadcastInDim _ _ Cert.ReferenceIdeal.Facts₀.bcast_S10000x1_S10000x40_0_1]
  rfl

/-- The kernel's scores are the specification's: a sum over the 256 columns of [h0 h1] taken as its first 128 places
    (h0 against the upper half of the matrix) plus its last 128 (h1 against the lower half), and the bias row. -/
theorem kernelScores_eq (h0 h1 : FVec Ideal Cert.KernelIdeal.S10000x128 .f32) (fcW : FVec Ideal Cert.KernelIdeal.S256x40 .f32) (b : FVec Ideal Cert.KernelIdeal.S40 .f32) :
    kernelScores h0 h1 (extractStridedSlice Cert.KernelIdeal.S128x40 ![0, 0] fcW Cert.KernelIdeal.Facts₀.slices_S256x40_S128x40_0_0)
      (extractStridedSlice Cert.KernelIdeal.S128x40 ![128, 0] fcW Cert.KernelIdeal.Facts₀.slices_S256x40_S128x40_128_0)
      (shapeCast Cert.KernelIdeal.S1x40 b Cert.KernelIdeal.Facts₀.shapeCasts_S40_S1x40)
      = Cert.Spec.scores (F := Ideal) h0 h1 fcW b := by
  funext i
  obtain ⟨p, q, rfl⟩ : ∃ (p : Fin 10000) (q : Fin 40), i = ix2 p q := ⟨i 0, i 1, eq_ix2 i⟩
  -- h0 against the upper half
  have hA : FloatOps.matmul Cert.KernelIdeal.dot_S10000x128_S128x40_S10000x40_1_0_0_1_n_n none h0
        (extractStridedSlice Cert.KernelIdeal.S128x40 ![0, 0] fcW Cert.KernelIdeal.Facts₀.slices_S256x40_S128x40_0_0)
        (constant Cert.KernelIdeal.S10000x40 .f32 0x00000000#32) (ix2 p q)
      = ∑ k : Fin 128, h0 (ix2 p k) * fcW (ix2 (⟨k.val, by have := k.isLt; omega⟩ : Fin 256) q) :=
    (matmul_plain_zero_apply Cert.KernelIdeal.dot_S10000x128_S128x40_S10000x40_1_0_0_1_n_n rfl none h0 _ p q).trans
      (Finset.sum_congr rfl fun k _ => congrArg (h0 (ix2 p k) * ·)
        (extractStridedSlice_apply _ fcW _ (ix2 k q) (ix2 (⟨k.val, by have := k.isLt; omega⟩ : Fin 256) q) fun a => by
          match a with
          | ⟨0, _⟩ => show k.val = 0 + k.val; omega
          | ⟨1, _⟩ => show q.val = 0 + q.val; omega))
  -- h1 against the lower half
  have hB : FloatOps.matmul Cert.KernelIdeal.dot_S10000x128_S128x40_S10000x40_1_0_0_1_n_n none h1
        (extractStridedSlice Cert.KernelIdeal.S128x40 ![128, 0] fcW Cert.KernelIdeal.Facts₀.slices_S256x40_S128x40_128_0)
        (constant Cert.KernelIdeal.S10000x40 .f32 0x00000000#32) (ix2 p q)
      = ∑ k : Fin 128, h1 (ix2 p k) * fcW (ix2 (⟨128 + k.val, by have := k.isLt; omega⟩ : Fin 256) q) :=
    (matmul_plain_zero_apply Cert.KernelIdeal.dot_S10000x128_S128x40_S10000x40_1_0_0_1_n_n rfl none h1 _ p q).trans
      (Finset.sum_congr rfl fun k _ => congrArg (h1 (ix2 p k) * ·)
        (extractStridedSlice_apply _ fcW _ (ix2 k q) (ix2 (⟨128 + k.val, by have := k.isLt; omega⟩ : Fin 256) q) fun a => by
          match a with
          | ⟨0, _⟩ => show 128 + k.val = 128 + k.val; rfl
          | ⟨1, _⟩ => show q.val = 0 + q.val; omega))
  -- [h0 h1] against the whole matrix, in two runs
  have hD : FloatOps.dotGeneral Cert.ReferenceIdeal.dot_S10000x256_S256x40_S10000x40_1_0_0_1_n_n none HostSchedule.single
        (concatenate Cert.ReferenceIdeal.S10000x256 1 [⟨Cert.ReferenceIdeal.S10000x128, h0⟩, ⟨Cert.ReferenceIdeal.S10000x128, h1⟩] Cert.ReferenceIdeal.Facts₀.concatenates_S10000x128_S10000x128_S10000x256_d1)
        fcW (ix2 p q)
      = (∑ k : Fin 128, h0 (ix2 p k) * fcW (ix2 (⟨k.val, by have := k.isLt; omega⟩ : Fin 256) q))
        + ∑ k : Fin 128, h1 (ix2 p k) * fcW (ix2 (⟨128 + k.val, by have := k.isLt; omega⟩ : Fin 256) q) := by
    rw [dotGeneral_plain_apply Cert.ReferenceIdeal.dot_S10000x256_S256x40_S10000x40_1_0_0_1_n_n rfl none _ _ fcW p q,
      Cert.PairConcat.sum_split 128 128 256 rfl]
    refine congrArg₂ (· + ·) (Finset.sum_congr rfl fun k _ => ?_) (Finset.sum_congr rfl fun k _ => ?_)
    · exact congrArg (· * _) (Cert.PairConcat.concat_cols_left h0 h1 _ p k _)
    · exact congrArg (· * _) (Cert.PairConcat.concat_cols_right h0 h1 _ p k _)
  -- the bias row, in the kernel's spelling and in the host's
  have hC : broadcastTo Cert.KernelIdeal.S10000x40 (shapeCast Cert.KernelIdeal.S1x40 b Cert.KernelIdeal.Facts₀.shapeCasts_S40_S1x40) Cert.KernelIdeal.Facts₀.broadcasts_S1x40_S10000x40 (ix2 p q)
      = b (ix1 q) :=
    (broadcastTo_1b_ab_apply _ _ p q).trans (shapeCast_a_1a_apply b _ 0 q)
  have hE : broadcastInDim Cert.ReferenceIdeal.S10000x40 ![0, 1] Cert.ReferenceIdeal.Facts₀.bcast_S1x40_S10000x40_0_1
        (broadcastInDim Cert.ReferenceIdeal.S1x40 ![1] Cert.ReferenceIdeal.Facts₀.bcast_S40_S1x40_1 b) (ix2 p q) = b (ix1 q) :=
    (broadcastInDim_oneRow_apply _ _ p q).trans
      (broadcastInDim_apply ![1] Cert.ReferenceIdeal.Facts₀.bcast_S40_S1x40_1 b (ix2 (0 : Fin 1) q) (ix1 q) fun a => by
        match a with
        | ⟨0, _⟩ => show q.val = if (40 : ℕ) = 1 then 0 else q.val; rw [if_neg (by decide)])
  exact (congrArg₂ (· + ·) (congrArg₂ (· + ·) hA hB) hC).trans (congrArg₂ (· + ·) hD hE).symm

end Cert.Head

end
-- ==== Proof.Walk.lean ====
/-
  The buffers' contents from the launch to the return, read back to the specification.

  The program's boundaries are: after each of the first four kernels, after the three host operations (the upper and
  lower 128 rows of the final matrix cut out, the bias re-cast to one row), after the last kernel. At each boundary a
  buffer holds what the segment before it wrote there, or what it held one boundary earlier: a kernel writes only its
  output array (which ends at the stage the array lemmas name) and leaves its input arrays and every other buffer; a
  host operation writes only its result. Walking back from the result buffer at the last boundary: it is the last
  kernel's stored value of the first layer (second boundary, untouched since), the second layer (fourth boundary), the
  two halves and the bias row (of the final matrix and bias as launched), which is the log-softmax of the scores; the
  second layer is max(P s, 0) of the third kernel's product of the first layer with W1, the first layer the same of the
  first kernel's product x W0, and P, x, W0, W1 are as launched at every boundary.
-/
import proofs.«160750_g30322469110222_cont_sun_m_817_2_alg».proof.Proof.Gen.KernelIdeal.Frame
import proofs.«160750_g30322469110222_cont_sun_m_817_2_alg».proof.Proof.WholeArrays
import proofs.«160750_g30322469110222_cont_sun_m_817_2_alg».proof.Proof.Blocks
import proofs.«160750_g30322469110222_cont_sun_m_817_2_alg».proof.Proof.Head
import Idealize.ShloMosaic.Lib.StableHlo.Run

set_option maxRecDepth 16384

noncomputable section

namespace Cert.Walk

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## After the first kernel -/

theorem W1_v0 (c : Dev nD) :
    W1 m ρ c (Proc.devRef .tc main_v0) = Cert.Spec.weighted (F := Ideal) (m ((c : Thread nD τ).loc main_arg0)) (m ((c : Thread nD τ).loc main_arg2)) :=
  (W1_arr m ρ c 2).trans (Cert.Arrays.arr0 (V0 m ρ) c)
theorem W1_arg1 (c : Dev nD) : W1 m ρ c (Proc.devRef .tc main_arg1) = (m ((c : Thread nD τ).loc main_arg1)) := W1_of_ne m ρ c main_arg1 (by decide)
theorem W1_arg3 (c : Dev nD) : W1 m ρ c (Proc.devRef .tc main_arg3) = (m ((c : Thread nD τ).loc main_arg3)) := W1_of_ne m ρ c main_arg3 (by decide)
theorem W1_arg4 (c : Dev nD) : W1 m ρ c (Proc.devRef .tc main_arg4) = (m ((c : Thread nD τ).loc main_arg4)) := W1_of_ne m ρ c main_arg4 (by decide)
theorem W1_arg5 (c : Dev nD) : W1 m ρ c (Proc.devRef .tc main_arg5) = (m ((c : Thread nD τ).loc main_arg5)) := W1_of_ne m ρ c main_arg5 (by decide)

/-! ## After the second kernel: the first layer -/

theorem W2_v1 (c : Dev nD) : W2 m ρ c (Proc.devRef .tc main_v1) = (Cert.Spec.layer (F := Ideal) (m ((c : Thread nD τ).loc main_arg1)) (m ((c : Thread nD τ).loc main_arg0)) (m ((c : Thread nD τ).loc main_arg2))) := by
  refine (W2_arr m ρ c 2).trans ((Cert.Blocks.arr1 (V1 m ρ) c).trans ?_)
  show Cert.Spec.propagated (F := Ideal) (W1 m ρ c (Proc.devRef .tc main_arg1)) (W1 m ρ c (Proc.devRef .tc main_v0)) = _
  rw [W1_arg1, W1_v0]
  rfl
theorem W2_arg1 (c : Dev nD) : W2 m ρ c (Proc.devRef .tc main_arg1) = (m ((c : Thread nD τ).loc main_arg1)) :=
  ((W2_arr m ρ c 0).trans (((dat1 (V1 m ρ) c).arrAt_in 0 rfl _).trans (A_eq1 (V1 m ρ) c 0))).trans (W1_arg1 m ρ c)
theorem W2_arg3 (c : Dev nD) : W2 m ρ c (Proc.devRef .tc main_arg3) = (m ((c : Thread nD τ).loc main_arg3)) :=
  (W2_of_ne m ρ c main_arg3 (by decide)).trans (W1_arg3 m ρ c)
theorem W2_arg4 (c : Dev nD) : W2 m ρ c (Proc.devRef .tc main_arg4) = (m ((c : Thread nD τ).loc main_arg4)) :=
  (W2_of_ne m ρ c main_arg4 (by decide)).trans (W1_arg4 m ρ c)
theorem W2_arg5 (c : Dev nD) : W2 m ρ c (Proc.devRef .tc main_arg5) = (m ((c : Thread nD τ).loc main_arg5)) :=
  (W2_of_ne m ρ c main_arg5 (by decide)).trans (W1_arg5 m ρ c)

/-! ## After the third kernel -/

theorem W3_v1 (c : Dev nD) : W3 m ρ c (Proc.devRef .tc main_v1) = (Cert.Spec.layer (F := Ideal) (m ((c : Thread nD τ).loc main_arg1)) (m ((c : Thread nD τ).loc main_arg0)) (m ((c : Thread nD τ).loc main_arg2))) :=
  ((W3_arr m ρ c 0).trans (((dat2 (V2 m ρ) c).arrAt_in 0 rfl _).trans (A_eq2 (V2 m ρ) c 0))).trans (W2_v1 m ρ c)
theorem W3_v2 (c : Dev nD) :
    W3 m ρ c (Proc.devRef .tc main_v2) = Cert.Spec.weighted (F := Ideal) (Cert.Spec.layer (F := Ideal) (m ((c : Thread nD τ).loc main_arg1)) (m ((c : Thread nD τ).loc main_arg0)) (m ((c : Thread nD τ).loc main_arg2))) (m ((c : Thread nD τ).loc main_arg3)) := by
  refine (W3_arr m ρ c 2).trans ((Cert.Arrays.arr2 (V2 m ρ) c).trans ?_)
  show Cert.Spec.weighted (F := Ideal) (W2 m ρ c (Proc.devRef .tc main_v1)) (W2 m ρ c (Proc.devRef .tc main_arg3)) = _
  rw [W2_v1, W2_arg3]
theorem W3_arg1 (c : Dev nD) : W3 m ρ c (Proc.devRef .tc main_arg1) = (m ((c : Thread nD τ).loc main_arg1)) :=
  (W3_of_ne m ρ c main_arg1 (by decide)).trans (W2_arg1 m ρ c)
theorem W3_arg4 (c : Dev nD) : W3 m ρ c (Proc.devRef .tc main_arg4) = (m ((c : Thread nD τ).loc main_arg4)) :=
  (W3_of_ne m ρ c main_arg4 (by decide)).trans (W2_arg4 m ρ c)
theorem W3_arg5 (c : Dev nD) : W3 m ρ c (Proc.devRef .tc main_arg5) = (m ((c : Thread nD τ).loc main_arg5)) :=
  (W3_of_ne m ρ c main_arg5 (by decide)).trans (W2_arg5 m ρ c)

/-! ## After the fourth kernel: the second layer -/

theorem W4_v3 (c : Dev nD) : W4 m ρ c (Proc.devRef .tc main_v3) = (Cert.Spec.layer (F := Ideal) (m ((c : Thread nD τ).loc main_arg1)) (Cert.Spec.layer (F := Ideal) (m ((c : Thread nD τ).loc main_arg1)) (m ((c : Thread nD τ).loc main_arg0)) (m ((c : Thread nD τ).loc main_arg2))) (m ((c : Thread nD τ).loc main_arg3))) := by
  refine (W4_arr m ρ c 2).trans ((Cert.Blocks.arr3 (V3 m ρ) c).trans ?_)
  show Cert.Spec.propagated (F := Ideal) (W3 m ρ c (Proc.devRef .tc main_arg1)) (W3 m ρ c (Proc.devRef .tc main_v2)) = _
  rw [W3_arg1, W3_v2]
  rfl
theorem W4_v1 (c : Dev nD) : W4 m ρ c (Proc.devRef .tc main_v1) = (Cert.Spec.layer (F := Ideal) (m ((c : Thread nD τ).loc main_arg1)) (m ((c : Thread nD τ).loc main_arg0)) (m ((c : Thread nD τ).loc main_arg2))) :=
  (W4_of_ne m ρ c main_v1 (by decide)).trans (W3_v1 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)

/-! ## After the three host operations: the two halves of the final matrix and the bias as one row -/

theorem W5_v1 (c : Dev nD) : W5 m ρ c (Proc.devRef .tc main_v1) = W4 m ρ c (Proc.devRef .tc main_v1) := by
  show StableHlo.after hostOps4 (W4 m ρ c) (Proc.devRef .tc main_v1) = _
  after_results
theorem W5_v3 (c : Dev nD) : W5 m ρ c (Proc.devRef .tc main_v3) = W4 m ρ c (Proc.devRef .tc main_v3) := by
  show StableHlo.after hostOps4 (W4 m ρ c) (Proc.devRef .tc main_v3) = _
  after_results
theorem W5_v4 (c : Dev nD) :
    W5 m ρ c (Proc.devRef .tc main_v4)
      = extractStridedSlice S128x40 ![0, 0] (W4 m ρ c (Proc.devRef .tc main_arg4)) Facts₀.slices_S256x40_S128x40_0_0 := by
  show StableHlo.after hostOps4 (W4 m ρ c) (Proc.devRef .tc main_v4) = _
  after_results
theorem W5_v5 (c : Dev nD) :
    W5 m ρ c (Proc.devRef .tc main_v5)
      = extractStridedSlice S128x40 ![128, 0] (W4 m ρ c (Proc.devRef .tc main_arg4)) Facts₀.slices_S256x40_S128x40_128_0 := by
  show StableHlo.after hostOps4 (W4 m ρ c) (Proc.devRef .tc main_v5) = _
  after_results
theorem W5_v6 (c : Dev nD) :
    W5 m ρ c (Proc.devRef .tc main_v6)
      = shapeCast S1x40 (W4 m ρ c (Proc.devRef .tc main_arg5)) Facts₀.shapeCasts_S40_S1x40 := by
  show StableHlo.after hostOps4 (W4 m ρ c) (Proc.devRef .tc main_v6) = _
  after_results
  rfl

/-! ## After the last kernel -/

/-- The result buffer at the last boundary holds the specification of the six arguments. -/
theorem result (c : Dev nD) :
    W6 m ρ c (Proc.devRef .tc main_v7)
      = Cert.Spec.out (F := Ideal) (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) := by
  refine (W6_arr m ρ c 5).trans ((Cert.Arrays.arr4 (V5 m ρ) c).trans ?_)
  show k4_pay1 (F := Ideal) (W5 m ρ c (Proc.devRef .tc main_v1)) (W5 m ρ c (Proc.devRef .tc main_v4)) (W5 m ρ c (Proc.devRef .tc main_v3))
    (W5 m ρ c (Proc.devRef .tc main_v5)) (W5 m ρ c (Proc.devRef .tc main_v6)) = _
  rw [W5_v1, W5_v3, W5_v4, W5_v5, W5_v6, W4_v1, W4_v3, W4_arg4, W4_arg5, Cert.Head.payload_eq, Cert.Head.kernelScores_eq,
    Cert.Head.kernelLogSoftmax_eq]
  rfl

end Cert.Walk

end
-- ==== Proof.LibNary3.lean ====
/-
  A host operation over a LITERAL family of three references (a `stablehlo.concatenate` of three operands, printed
  `nary ![a, b, c] …`), read back with each operand's contents AT ITS OWN REFERENCE, so that a rewriting pass over a
  stretch of host operations goes on into the operands (under the binder of the general `nary` lemma the reference
  `![a, b, c] k` is no literal and no result lemma applies to it). The three-operand counterpart of the library's
  four-operand lemma, with the one-pass tactic over the library's result lemmas and this one, the fold of a stretch
  of host operations over a concatenation of two stretches, and a stretch split at such an operation.
-/
import Idealize.ShloMosaic.Lib.StableHlo.Run

namespace Idealize.ShloMosaic.StableHlo

variable {nD : Nat} {τ : Topo} {sig : RefSig} {Val : EltTy → Type}
variable {x a b y : Ref sig .tc}

/-- The result of a three-operand host operation at its own result buffer: its function of the three operands'
    contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, restated for `simp` (the result reference un-indexed, as the library's primed lemmas are). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A stretch of host operations read back at one reference as ONE `simp` pass: the library's pass with the
    three- and four-operand literal-family lemmas in place of the general `nary` one. -/
macro "host_results_simp" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

/-- A typed reference's two casts, there and back, are the identity (whatever the reference). -/
theorem ofBuf_toBuf {T : BufTy} (x : TRef sig T) (v : T.Contents Val) : x.ofBuf (x.toBuf v) = v := by
  unfold TRef.toBuf TRef.ofBuf; rw [cast_cast]; exact cast_eq _ _

/-- The fold of a stretch of host operations over a concatenation is the fold of the second part over the fold of the
    first. -/
theorem after_append (A B : List (HloOp τ sig Val)) (V : Valuation τ sig Val) : after (A ++ B) V = after B (after A V) := by
  induction A generalizing V with
  | nil => rfl
  | cons op A ih => exact ih (op.result V)

/-- A stretch that ends in a three-operand operation (and operations after it that do not write its result): the
    result is the operation's function of the operands as the stretch BEFORE it leaves them. -/
theorem after_pre_nary3 (pre tail : List (HloOp τ sig Val))
    (f : ((k : Fin 3) → ((![x, a, b] : Fin 3 → Ref sig .tc) k).ty.Contents Val) → y.ty.Contents Val) (hxs hy)
    (V : Valuation τ sig Val) (htail : ∀ op ∈ tail, (Proc.devRef .tc y : DevRef τ sig) ∉ op.writes) :
    after (pre ++ nary (τ := τ) ![x, a, b] y f hxs hy :: tail) V (Proc.devRef .tc y)
      = f (Fin.cons (after pre V (Proc.devRef .tc x)) (Fin.cons (after pre V (Proc.devRef .tc a)) (Fin.cons (after pre V (Proc.devRef .tc b)) (fun i => i.elim0)))) := by
  rw [after_append, after_cons, after_of_forall_not_mem tail _ htail]
  exact nary3_result f hxs hy _

/-- The same for a four-operand operation. -/
theorem after_pre_nary4 {e : Ref sig .tc} (pre tail : List (HloOp τ sig Val))
    (f : ((k : Fin 4) → ((![x, a, b, e] : Fin 4 → Ref sig .tc) k).ty.Contents Val) → y.ty.Contents Val) (hxs hy)
    (V : Valuation τ sig Val) (htail : ∀ op ∈ tail, (Proc.devRef .tc y : DevRef τ sig) ∉ op.writes) :
    after (pre ++ nary (τ := τ) ![x, a, b, e] y f hxs hy :: tail) V (Proc.devRef .tc y)
      = f (Fin.cons (after pre V (Proc.devRef .tc x)) (Fin.cons (after pre V (Proc.devRef .tc a)) (Fin.cons (after pre V (Proc.devRef .tc b)) (Fin.cons (after pre V (Proc.devRef .tc e)) (fun i => i.elim0))))) := by
  rw [after_append, after_cons, after_of_forall_not_mem tail _ htail]
  exact nary4_result f hxs hy _

/-- A property of every entry of two lists holds of every entry of their concatenation. -/
theorem forall_append {α : Type} {P : α → Prop} {A B : List α} (ha : A.Forall P) (hb : B.Forall P) : (A ++ B).Forall P :=
  List.forall_iff_forall_mem.mpr fun x hx =>
    (List.mem_append.mp hx).elim (List.forall_iff_forall_mem.mp ha x) (List.forall_iff_forall_mem.mp hb x)

end Idealize.ShloMosaic.StableHlo
-- ==== Proof.RefSpec.lean ====
/-
  The reference computes the specification: its composed result term, stage for stage, is the specification's function
  of the six argument arrays — two layers max(P (a w), 0), the scores of the two layers side by side, the shifted
  log-softmax — since the specification was written with the reference's own operations.
-/
import proofs.«160750_g30322469110222_cont_sun_m_817_2_alg».proof.Proof.RefRunPatched
import proofs.«160750_g30322469110222_cont_sun_m_817_2_alg».proof.Proof.Spec

noncomputable section

namespace Cert.RefSpec

open Idealize.ShloMosaic Idealize.ShloMosaic.TcCoe Idealize.SL.Sem Cert.ReferenceIdeal

variable {F : FTy → Type} [FloatOps F]

/-- The reference's result term is the specification of its arguments. -/
theorem result_eq (m : (ℓ : Loc nD τ sig) → Buf (Elt F) ℓ) (c : Dev nD) :
    Cert.ReferenceIdeal.Value.res_main_v13 m c
      = Cert.Spec.out (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v13 Cert.Spec.out Cert.Spec.logSoftmax Cert.Spec.centred Cert.Spec.rowMax
    Cert.Spec.scores Cert.Spec.layer Cert.Spec.propagated Cert.Spec.weighted Cert.Spec.positivePart
  rfl

end Cert.RefSpec

end
-- ==== Proof.lean ====
/-
  A two-layer graph network with a jumping-knowledge head, as five kernels, against the same network in plain array
  operations, at the exact extended-real values.

  With P the 10000 x 10000 propagation matrix and x the node features, both programs compute
      h0 = max(P (x W0), 0),   h1 = max(P (h0 W1), 0),   z = [h0 h1] fcW + b,   out = log-softmax of z along each row
  (the shifted form: z less its row's maximum, less the logarithm of the row's sum of exponentials of that).
  The kernels take x W0 and h0 W1 whole, stream P in 25 blocks of 400 rows for each of the two products with P, and in a
  last kernel add h0 against the upper half of fcW to h1 against its lower half before the bias and the log-softmax.
  At exact values a narrowing to sixteen bits is the identity and a matrix product is a sum over the contracted index
  however it is blocked, so each kernel's output array is the corresponding stage of the specification (Spec.lean):
  the products and blocks in Products.lean, WholeArrays.lean and Blocks.lean; the head, where the one law used is that a
  sum over 256 places is the sum of its two runs of 128, and that -inf joined with x is x, in Head.lean. No step needs
  the inputs finite: sums are only regrouped, never distributed or cancelled.
  The buffers' contents from launch to return are walked back in Walk.lean to the specification of the six arguments,
  over the kernel's run with its result kept (KernelRun.lean); the reference's run ends at the same function of its
  arguments (RefSpec.lean). The idealized kernel is the kernel's own text read at exact values: nothing was rewritten,
  so there is nothing to preserve beyond that.
-/
import proofs.«160750_g30322469110222_cont_sun_m_817_2_alg».proof.Defs
import proofs.«160750_g30322469110222_cont_sun_m_817_2_alg».proof.Proof.Gen.Kernel
import proofs.«160750_g30322469110222_cont_sun_m_817_2_alg».proof.Proof.Gen.Kernel.Skeleton
import proofs.«160750_g30322469110222_cont_sun_m_817_2_alg».proof.Proof.Gen.Kernel.Launch
import proofs.«160750_g30322469110222_cont_sun_m_817_2_alg».proof.Proof.Gen.Kernel.Points
import proofs.«160750_g30322469110222_cont_sun_m_817_2_alg».proof.Proof.Gen.Kernel.Frame
import proofs.«160750_g30322469110222_cont_sun_m_817_2_alg».proof.Proof.Gen.KernelIdeal
import proofs.«160750_g30322469110222_cont_sun_m_817_2_alg».proof.Proof.Gen.KernelIdeal.Skeleton
import proofs.«160750_g30322469110222_cont_sun_m_817_2_alg».proof.Proof.Gen.KernelIdeal.Launch
import proofs.«160750_g30322469110222_cont_sun_m_817_2_alg».proof.Proof.Gen.KernelIdeal.Points
import proofs.«160750_g30322469110222_cont_sun_m_817_2_alg».proof.Proof.Gen.KernelIdeal.Frame
import proofs.«160750_g30322469110222_cont_sun_m_817_2_alg».proof.Proof.Gen.ReferenceIdeal
import proofs.«160750_g30322469110222_cont_sun_m_817_2_alg».proof.Proof.Gen.Pre_finite_inputs
import proofs.«160750_g30322469110222_cont_sun_m_817_2_alg».proof.Proof.KernelRun
import proofs.«160750_g30322469110222_cont_sun_m_817_2_alg».proof.Proof.Walk
import proofs.«160750_g30322469110222_cont_sun_m_817_2_alg».proof.Proof.RefRunPatched
import proofs.«160750_g30322469110222_cont_sun_m_817_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read at exact values. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification of those arguments in their
    result buffers. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.Walk.result m ρ c), (h c).2⟩)
      (Cert.KernelRun.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.RefSpec.result_eq, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
